-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S3x96x96 : Shape := ⟨3, ![3, 96, 96]⟩
abbrev S96x96 : Shape := ⟨2, ![96, 96]⟩
abbrev S96 : Shape := ⟨1, ![96]⟩
abbrev S96x16 : Shape := ⟨2, ![96, 16]⟩
abbrev S16 : Shape := ⟨1, ![16]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x16 : S_.BroadcastsInDim S96x16 (![] : Fin 0 → Fin S96x16.rank)
  reducesTo_S96x16_S_d0_1 : S96x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg10 : FVec F S96x16 .f32) (main_arg11 : FVec F S16 .f32) (main_v33 : IVec S_ 1) : IVec S_ 1 :=
  let main_v34 : FVec F S96x16 .f32 := Host.absf main_arg10
  let main_cst_12 : FVec F S_ .f32 := constant S_ .f32 0x7F800000#32
  let main_v35 : FVec F S96x16 .f32 := broadcastInDim S96x16 ![] bcast_S_S96x16 main_cst_12
  let main_v36 : IVec S96x16 1 := cmpf .olt main_v34 main_v35
  let main_c_13 : IVec S_ 1 := constantI S_ 1 1#1
  let main_v37 : IVec S_ 1 := (fun x v => Host.reduce IntOp.andi x v reducesTo_S96x16_S_d0_1 h_S_) main_v36 main_c_13
  let main_v38 : IVec S_ 1 := andi main_v33 main_v37
  let main_v39 : FVec F S16 .f32 := Host.absf main_arg11
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg7 : FVec F S3x96x96 .f32) (main_arg8 : FVec F S96x96 .f32) (main_arg9 : FVec F S96 .f32) (main_arg10 : FVec F S96x16 .f32) (main_arg11 : FVec F S16 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S3x96x96 .f32 := Host.absf main_arg7
  let main_cst_6 : FVec F S_ .f32 := constant S_ .f32 0x7F800000#32
  let main_v20 : FVec F S3x96x96 .f32 := broadcastInDim S3x96x96 ![] bcast_S_S3x96x96 main_cst_6
  let main_v21 : IVec S3x96x96 1 := cmpf .olt main_v19 main_v20
  let main_c_7 : IVec S_ 1 := constantI S_ 1 1#1
  let main_v22 : IVec S_ 1 := (fun x v => Host.reduce IntOp.andi x v reducesTo_S3x96x96_S_d0_1_2 h_S_) main_v21 main_c_7
  let main_v23 : IVec S_ 1 := andi main_v18 main_v22
  let main_v24 : FVec F S96x96 .f32 := Host.absf main_arg8
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg9
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg10 main_arg11 main_v33

def fn {F : FTy → Type} [FloatOps F] (main_arg0 : FVec F S50000x96 .f32) (main_arg1 : IVec S2x800000 32) (main_arg2 : IVec S800000 32) (main_arg3 : IVec S50000 32) (main_arg4 : FVec F S3x96x96 .f32) (main_arg5 : FVec F S96x96 .f32) (main_arg6 : FVec F S96 .f32) (main_arg7 : FVec F S3x96x96 .f32) (main_arg8 : FVec F S96x96 .f32) (main_arg9 : FVec F S96 .f32) (main_arg10 : FVec F S96x16 .f32) (main_arg11 : FVec F S16 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x96 .f32 := Host.absf main_arg4
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S96x96 .f32 := Host.absf main_arg5
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg6
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg7 main_arg8 main_arg9 main_arg10 main_arg11 main_v13 main_v16
-- ==== Kernel.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S3x96x96 : Shape := ⟨3, ![3, 96, 96]⟩
abbrev S96x96 : Shape := ⟨2, ![96, 96]⟩
abbrev S96 : Shape := ⟨1, ![96]⟩
abbrev S96x16 : Shape := ⟨2, ![96, 16]⟩
abbrev S16 : Shape := ⟨1, ![16]⟩
abbrev S1x800000 : Shape := ⟨2, ![1, 800000]⟩
abbrev S5000x96 : Shape := ⟨2, ![5000, 96]⟩
abbrev S1x96 : Shape := ⟨2, ![1, 96]⟩
abbrev S1x96x96 : Shape := ⟨3, ![1, 96, 96]⟩
abbrev S_ : Shape := ⟨0, ![]⟩
abbrev S800000x1 : Shape := ⟨2, ![800000, 1]⟩
abbrev S800000x96 : Shape := ⟨2, ![800000, 96]⟩
abbrev S50000x1 : Shape := ⟨2, ![50000, 1]⟩
abbrev S512x96 : Shape := ⟨2, ![512, 96]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 245
  | .vmem => 30
  | .smem => 0
  | _ => 0

abbrev hbmTy0_0 (i : Nat) : BufTy := match i % 128 with
  | 0 => ⟨S50000x96, .f32⟩
  | 1 => ⟨S2x800000, .i32⟩
  | 2 => ⟨S800000, .i32⟩
  | 3 => ⟨S50000, .i32⟩
  | 4 => ⟨S3x96x96, .f32⟩
  | 5 => ⟨S96x96, .f32⟩
  | 6 => ⟨S96, .f32⟩
  | 7 => ⟨S3x96x96, .f32⟩
  | 8 => ⟨S96x96, .f32⟩
  | 9 => ⟨S96, .f32⟩
  | 10 => ⟨S96x16, .f32⟩
  | 11 => ⟨S16, .f32⟩
  | 12 => ⟨S1x800000, .i32⟩
  | 13 => ⟨S800000, .i32⟩
  | 14 => ⟨S1x800000, .i32⟩
  | 15 => ⟨S800000, .i32⟩
  | 16 => ⟨S50000x96, .f32⟩
  | 17 => ⟨S50000x96, .f32⟩
  | 18 => ⟨S50000x96, .f32⟩
  | 19 => ⟨S50000x96, .f32⟩
  | 20 => ⟨S_, .i32⟩
  | 21 => ⟨S800000, .i32⟩
  | 22 => ⟨S800000, .i1⟩
  | 23 => ⟨S800000x1, .i1⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x96, .f32⟩
  | 33 => ⟨S_, .f32⟩
  | 34 => ⟨S800000x96, .i1⟩
  | 35 => ⟨S800000x96, .f32⟩
  | 36 => ⟨S800000x96, .f32⟩
  | 37 => ⟨S_, .f32⟩
  | 38 => ⟨S50000x96, .f32⟩
  | 39 => ⟨S800000x1, .i32⟩
  | 40 => ⟨S50000x96, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x96, .f32⟩
  | 51 => ⟨S50000x96, .f32⟩
  | 52 => ⟨S50000x96, .f32⟩
  | 53 => ⟨S_, .i32⟩
  | 54 => ⟨S800000, .i32⟩
  | 55 => ⟨S800000, .i1⟩
  | 56 => ⟨S800000x1, .i1⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x96, .f32⟩
  | 66 => ⟨S_, .f32⟩
  | 67 => ⟨S800000x96, .i1⟩
  | 68 => ⟨S800000x96, .f32⟩
  | 69 => ⟨S800000x96, .f32⟩
  | 70 => ⟨S_, .f32⟩
  | 71 => ⟨S50000x96, .f32⟩
  | 72 => ⟨S800000x1, .i32⟩
  | 73 => ⟨S50000x96, .f32⟩
  | 74 => ⟨S800000, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000x1, .f32⟩
  | 83 => ⟨S50000x96, .f32⟩
  | 84 => ⟨S50000x96, .f32⟩
  | 85 => ⟨S50000x96, .f32⟩
  | 86 => ⟨S_, .i32⟩
  | 87 => ⟨S800000, .i32⟩
  | 88 => ⟨S800000, .i1⟩
  | 89 => ⟨S800000x1, .i1⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x96, .f32⟩
  | 99 => ⟨S_, .f32⟩
  | 100 => ⟨S800000x96, .i1⟩
  | 101 => ⟨S800000x96, .f32⟩
  | 102 => ⟨S800000x96, .f32⟩
  | 103 => ⟨S_, .f32⟩
  | 104 => ⟨S50000x96, .f32⟩
  | 105 => ⟨S800000x1, .i32⟩
  | 106 => ⟨S50000x96, .f32⟩
  | 107 => ⟨S800000, .f32⟩
  | 108 => ⟨S_, .f32⟩
  | 109 => ⟨S50000, .f32⟩
  | 110 => ⟨S800000x1, .i32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x96, .f32⟩
  | 117 => ⟨S50000x96, .f32⟩
  | 118 => ⟨S50000x96, .f32⟩
  | 119 => ⟨S_, .f32⟩
  | 120 => ⟨S50000x96, .f32⟩
  | 121 => ⟨S50000x96, .f32⟩
  | 122 => ⟨S50000x96, .f32⟩
  | 123 => ⟨S50000x96, .f32⟩
  | 124 => ⟨S50000x96, .f32⟩
  | 125 => ⟨S50000x96, .f32⟩
  | 126 => ⟨S_, .i32⟩
  | 127 => ⟨S800000, .i32⟩
  | _ => ⟨S50000x96, .f32⟩

abbrev hbmTy0_1 (i : Nat) : BufTy := match i % 128 with
  | 0 => ⟨S800000, .i1⟩
  | 1 => ⟨S800000x1, .i1⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x96, .f32⟩
  | 11 => ⟨S_, .f32⟩
  | 12 => ⟨S800000x96, .i1⟩
  | 13 => ⟨S800000x96, .f32⟩
  | 14 => ⟨S800000x96, .f32⟩
  | 15 => ⟨S_, .f32⟩
  | 16 => ⟨S50000x96, .f32⟩
  | 17 => ⟨S800000x1, .i32⟩
  | 18 => ⟨S50000x96, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x96, .f32⟩
  | 29 => ⟨S50000x96, .f32⟩
  | 30 => ⟨S50000x96, .f32⟩
  | 31 => ⟨S_, .i32⟩
  | 32 => ⟨S800000, .i32⟩
  | 33 => ⟨S800000, .i1⟩
  | 34 => ⟨S800000x1, .i1⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x96, .f32⟩
  | 44 => ⟨S_, .f32⟩
  | 45 => ⟨S800000x96, .i1⟩
  | 46 => ⟨S800000x96, .f32⟩
  | 47 => ⟨S800000x96, .f32⟩
  | 48 => ⟨S_, .f32⟩
  | 49 => ⟨S50000x96, .f32⟩
  | 50 => ⟨S800000x1, .i32⟩
  | 51 => ⟨S50000x96, .f32⟩
  | 52 => ⟨S800000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x96, .f32⟩
  | 62 => ⟨S50000x96, .f32⟩
  | 63 => ⟨S50000x96, .f32⟩
  | 64 => ⟨S_, .i32⟩
  | 65 => ⟨S800000, .i32⟩
  | 66 => ⟨S800000, .i1⟩
  | 67 => ⟨S800000x1, .i1⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x96, .f32⟩
  | 77 => ⟨S_, .f32⟩
  | 78 => ⟨S800000x96, .i1⟩
  | 79 => ⟨S800000x96, .f32⟩
  | 80 => ⟨S800000x96, .f32⟩
  | 81 => ⟨S_, .f32⟩
  | 82 => ⟨S50000x96, .f32⟩
  | 83 => ⟨S800000x1, .i32⟩
  | 84 => ⟨S50000x96, .f32⟩
  | 85 => ⟨S800000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x96, .f32⟩
  | 95 => ⟨S50000x96, .f32⟩
  | 96 => ⟨S50000x96, .f32⟩
  | 97 => ⟨S_, .f32⟩
  | 98 => ⟨S50000x96, .f32⟩
  | 99 => ⟨S50000x96, .f32⟩
  | 100 => ⟨S_, .f32⟩
  | 101 => ⟨S512x96, .f32⟩
  | 102 => ⟨S50000x1, .i32⟩
  | 103 => ⟨S512x96, .f32⟩
  | 104 => ⟨S_, .f32⟩
  | 105 => ⟨S50000, .f32⟩
  | 106 => ⟨S_, .f32⟩
  | 107 => ⟨S512, .f32⟩
  | 108 => ⟨S50000x1, .i32⟩
  | 109 => ⟨S512, .f32⟩
  | 110 => ⟨S_, .f32⟩
  | 111 => ⟨S512, .f32⟩
  | 112 => ⟨S512, .f32⟩
  | 113 => ⟨S512x1, .f32⟩
  | 114 => ⟨S512x96, .f32⟩
  | 115 => ⟨S512x96, .f32⟩
  | 116 => ⟨S512x16, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S96, .f32⟩
  | .local _ .vmem, ⟨4, _⟩ => ⟨S3x96x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S5000x96, .f32⟩
  | .local _ .vmem, ⟨15, _⟩ => ⟨S96x96, .f32⟩
  | .local _ .vmem, ⟨16, _⟩ => ⟨S96, .f32⟩
  | .local _ .vmem, ⟨17, _⟩ => ⟨S3x96x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S512x96, .f32⟩
  | .local _ .vmem, ⟨27, _⟩ => ⟨S96x16, .f32⟩
  | .local _ .vmem, ⟨28, _⟩ => ⟨S16, .f32⟩
  | .local _ .vmem, ⟨29, _⟩ => ⟨S512x16, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_13 : Ref sig .tc := ⟨.hbm, 90, rfl⟩
abbrev main_v56 : Ref sig .tc := ⟨.hbm, 91, rfl⟩
abbrev main_v57 : Ref sig .tc := ⟨.hbm, 92, rfl⟩
abbrev main_c_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_v63 : Ref sig .tc := ⟨.hbm, 102, rfl⟩
abbrev main_cst_16 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_17 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call3_cst : Ref sig .tc := ⟨.hbm, 119, rfl⟩
abbrev main_call3_v0 : Ref sig .tc := ⟨.hbm, 120, rfl⟩
abbrev main_v77 : Ref sig .tc := ⟨.hbm, 121, rfl⟩
abbrev main_v78_0 : Ref sig .tc := ⟨.hbm, 122, rfl⟩
abbrev main_v78_1 : Ref sig .tc := ⟨.hbm, 123, rfl⟩
abbrev main_v78_2 : Ref sig .tc := ⟨.hbm, 124, rfl⟩
abbrev main_v78_3 : Ref sig .tc := ⟨.hbm, 125, rfl⟩
abbrev main_c_19 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_c_20 : Ref sig .tc := ⟨.hbm, 130, rfl⟩
abbrev main_v82 : Ref sig .tc := ⟨.hbm, 131, rfl⟩
abbrev main_v83 : Ref sig .tc := ⟨.hbm, 132, rfl⟩
abbrev main_c_21 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_22 : Ref sig .tc := ⟨.hbm, 139, rfl⟩
abbrev main_call4_v0 : Ref sig .tc := ⟨.hbm, 140, rfl⟩
abbrev main_call4_v1 : Ref sig .tc := ⟨.hbm, 141, rfl⟩
abbrev main_v89 : Ref sig .tc := ⟨.hbm, 142, rfl⟩
abbrev main_cst_23 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_24 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_25 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_26 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_27 : Ref sig .tc := ⟨.hbm, 163, rfl⟩
abbrev main_v106 : Ref sig .tc := ⟨.hbm, 164, rfl⟩
abbrev main_v107 : Ref sig .tc := ⟨.hbm, 165, rfl⟩
abbrev main_c_28 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_cst_29 : Ref sig .tc := ⟨.hbm, 172, rfl⟩
abbrev main_call5_v0 : Ref sig .tc := ⟨.hbm, 173, rfl⟩
abbrev main_call5_v1 : Ref sig .tc := ⟨.hbm, 174, rfl⟩
abbrev main_v113 : Ref sig .tc := ⟨.hbm, 175, rfl⟩
abbrev main_cst_30 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_31 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_32 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_c_33 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_c_34 : Ref sig .tc := ⟨.hbm, 196, rfl⟩
abbrev main_v130 : Ref sig .tc := ⟨.hbm, 197, rfl⟩
abbrev main_v131 : Ref sig .tc := ⟨.hbm, 198, rfl⟩
abbrev main_c_35 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_cst_36 : Ref sig .tc := ⟨.hbm, 205, rfl⟩
abbrev main_call6_v0 : Ref sig .tc := ⟨.hbm, 206, rfl⟩
abbrev main_call6_v1 : Ref sig .tc := ⟨.hbm, 207, rfl⟩
abbrev main_v137 : Ref sig .tc := ⟨.hbm, 208, rfl⟩
abbrev main_cst_37 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_cst_38 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_cst_39 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_call7_cst : Ref sig .tc := ⟨.hbm, 225, rfl⟩
abbrev main_call7_v0 : Ref sig .tc := ⟨.hbm, 226, rfl⟩
abbrev main_v151 : Ref sig .tc := ⟨.hbm, 227, rfl⟩
abbrev main_cst_40 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_cst_41 : Ref sig .tc := ⟨.hbm, 232, rfl⟩
abbrev main_v155 : Ref sig .tc := ⟨.hbm, 233, rfl⟩
abbrev main_cst_42 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_cst_43 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem1_0 : DmaSem sig := 27
abbrev cc2_sem2_0 : DmaSem sig := 28
abbrev cc2_sem3_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x96 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S96x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  inb_S3x96x96_S1x96x96_0_0_0 : ∀ a, (![0, 0, 0] : Fin 3 → Nat) a + S1x96x96.size a ≤ S3x96x96.size a
  h_S1x96x96 : 0 < S1x96x96.numel
  shapeCasts_S1x96x96_S96x96 : S1x96x96.ShapeCasts S96x96
  inb_S3x96x96_S1x96x96_1_0_0 : ∀ a, (![1, 0, 0] : Fin 3 → Nat) a + S1x96x96.size a ≤ S3x96x96.size a
  inb_S3x96x96_S1x96x96_2_0_0 : ∀ a, (![2, 0, 0] : Fin 3 → Nat) a + S1x96x96.size a ≤ S3x96x96.size a
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S5000x96_S5000x96 : S5000x96.ShapeCasts S5000x96
  bcast_S_S512x96 : S_.BroadcastsInDim S512x96 (![] : Fin 0 → Fin S512x96.rank)
  bcast_S_S512 : S_.BroadcastsInDim S512 (![] : Fin 0 → Fin S512.rank)
  bcast_S512_S512x1_0 : S512.BroadcastsInDim S512x1 (![0] : Fin 1 → Fin S512x1.rank)
  bcast_S512x1_S512x96_0_1 : S512x1.BroadcastsInDim S512x96 (![0, 1] : Fin 2 → Fin S512x96.rank)
  inb_S512x96_S512x96_0_0 : ∀ a, (![0, 0] : Fin 2 → Nat) a + S512x96.size a ≤ S512x96.size a
  h_S512x96 : 0 < S512x96.numel
  shapeCasts_S512x96_S512x96 : S512x96.ShapeCasts S512x96
  inb_S96x16_S96x16_0_0 : ∀ a, (![0, 0] : Fin 2 → Nat) a + S96x16.size a ≤ S96x16.size a
  h_S96x16 : 0 < S96x16.numel
  inb_S16_S16_0 : ∀ a, (![0] : Fin 1 → Nat) a + S16.size a ≤ S16.size a
  h_S16 : 0 < S16.numel
  shapeCasts_S16_S1x16 : S16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  dot_S5000x96_S96x96_S5000x96_1_0_0_1_n_n_wf : DotDims.WF S5000x96 S96x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  scatter_S512x96_S50000x1_S50000x96_1_0_0_1_wf : ScatterDims.WF S512x96 S50000x1 S50000x96 [1] [0] [0] 1
  scatter_S512_S50000x1_S50000_n_0_0_1_wf : ScatterDims.WF S512 S50000x1 S50000 [] [0] [0] 1
  dot_S512x96_S96x16_S512x16_1_0_0_1_n_n_wf : DotDims.WF S512x96 S96x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96.size a ≤ S96.size a
  hwx0_2 : ∀ i : grid0.Coords, EltTy.bits .f32 = 32 ∨ (Rect.block (s := S96) S96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x96x96.size a ≤ S3x96x96.size a
  hwx0_3 : ∀ i : grid0.Coords, EltTy.bits .f32 = 32 ∨ (Rect.block (s := S3x96x96) S3x96x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .f32 = 32 ∨ (Rect.block (s := S50000x96) S5000x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x96.size a ≤ S50000x96.size a
  hwx0_7 : ∀ i : grid0.Coords, EltTy.bits .f32 = 32 ∨ (Rect.block (s := S50000x96) S5000x96.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x96x96.size a ≤ S3x96x96.size a
  hwx1_3 : ∀ i : grid1.Coords, EltTy.bits .f32 = 32 ∨ (Rect.block (s := S3x96x96) S3x96x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x96.size a ≤ S50000x96.size a
  hwx1_4 : ∀ i : grid1.Coords, EltTy.bits .f32 = 32 ∨ (Rect.block (s := S50000x96) S5000x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x96.size a ≤ S50000x96.size a
  hwx1_7 : ∀ i : grid1.Coords, EltTy.bits .f32 = 32 ∨ (Rect.block (s := S50000x96) S5000x96.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x96.size a ≤ S512x96.size a
  hwx2_0 : ∀ i : grid2.Coords, EltTy.bits .f32 = 32 ∨ (Rect.block (s := S512x96) S512x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x16.size a ≤ S96x16.size a
  hwx2_1 : ∀ i : grid2.Coords, EltTy.bits .f32 = 32 ∨ (Rect.block (s := S96x16) S96x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16.size a ≤ S16.size a
  hwx2_2 : ∀ i : grid2.Coords, EltTy.bits .f32 = 32 ∨ (Rect.block (s := S16) S16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x16.size a ≤ S512x16.size a
  hwx2_3 : ∀ i : grid2.Coords, EltTy.bits .f32 = 32 ∨ (Rect.block (s := S512x16) S512x16.size (cc2_transform_3 i) (hinb2_3 i)).WholeWords (EltTy.packing .f32)

variable [Facts₀]

def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x96_S96x16_S512x16_1_0_0_1_n_n : DotDims S512x96 S96x16 S512x16 where
  lhsContracting := [1]
  rhsContracting := [0]
  lhsNonContracting := [0]
  rhsNonContracting := [1]
  lhsBatch := []
  rhsBatch := []
  wf := dot_S512x96_S96x16_S512x16_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S5000x96.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S5000x96.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S5000x96.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S5000x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v77) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S3x96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v78_0) S5000x96.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v78_1) S5000x96.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v78_2) S5000x96.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v78_3) S5000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v163) S512x96.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S96x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v164) S512x16.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000 : Shape := ⟨1, ![800000]⟩
abbrev S50000 : Shape := ⟨1, ![50000]⟩
abbrev S3x96x96 : Shape := ⟨3, ![3, 96, 96]⟩
abbrev S96x96 : Shape := ⟨2, ![96, 96]⟩
abbrev S96 : Shape := ⟨1, ![96]⟩
abbrev S96x16 : Shape := ⟨2, ![96, 16]⟩
abbrev S16 : Shape := ⟨1, ![16]⟩
abbrev S1x800000 : Shape := ⟨2, ![1, 800000]⟩
abbrev S1x96 : Shape := ⟨2, ![1, 96]⟩
abbrev S_ : Shape := ⟨0, ![]⟩
abbrev S1x96x96 : Shape := ⟨3, ![1, 96, 96]⟩
abbrev S800000x1 : Shape := ⟨2, ![800000, 1]⟩
abbrev S800000x96 : Shape := ⟨2, ![800000, 96]⟩
abbrev S50000x1 : Shape := ⟨2, ![50000, 1]⟩
abbrev S512x96 : Shape := ⟨2, ![512, 96]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 266
  | .vmem => 0
  | .smem => 0
  | _ => 0

abbrev hbmTy0_0 (i : Nat) : BufTy := match i % 128 with
  | 0 => ⟨S50000x96, .f32⟩
  | 1 => ⟨S2x800000, .i32⟩
  | 2 => ⟨S800000, .i32⟩
  | 3 => ⟨S50000, .i32⟩
  | 4 => ⟨S3x96x96, .f32⟩
  | 5 => ⟨S96x96, .f32⟩
  | 6 => ⟨S96, .f32⟩
  | 7 => ⟨S3x96x96, .f32⟩
  | 8 => ⟨S96x96, .f32⟩
  | 9 => ⟨S96, .f32⟩
  | 10 => ⟨S96x16, .f32⟩
  | 11 => ⟨S16, .f32⟩
  | 12 => ⟨S1x800000, .i32⟩
  | 13 => ⟨S800000, .i32⟩
  | 14 => ⟨S1x800000, .i32⟩
  | 15 => ⟨S800000, .i32⟩
  | 16 => ⟨S50000x96, .f32⟩
  | 17 => ⟨S1x96, .f32⟩
  | 18 => ⟨S50000x96, .f32⟩
  | 19 => ⟨S50000x96, .f32⟩
  | 20 => ⟨S_, .i32⟩
  | 21 => ⟨S800000, .i32⟩
  | 22 => ⟨S800000, .i1⟩
  | 23 => ⟨S1x96x96, .f32⟩
  | 24 => ⟨S96x96, .f32⟩
  | 25 => ⟨S50000x96, .f32⟩
  | 26 => ⟨S800000x1, .i1⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x96, .f32⟩
  | 36 => ⟨S_, .f32⟩
  | 37 => ⟨S800000x96, .i1⟩
  | 38 => ⟨S800000x96, .f32⟩
  | 39 => ⟨S800000x96, .f32⟩
  | 40 => ⟨S_, .f32⟩
  | 41 => ⟨S50000x96, .f32⟩
  | 42 => ⟨S800000x1, .i32⟩
  | 43 => ⟨S50000x96, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x96, .f32⟩
  | 54 => ⟨S50000x96, .f32⟩
  | 55 => ⟨S50000x96, .f32⟩
  | 56 => ⟨S_, .i32⟩
  | 57 => ⟨S800000, .i32⟩
  | 58 => ⟨S800000, .i1⟩
  | 59 => ⟨S1x96x96, .f32⟩
  | 60 => ⟨S96x96, .f32⟩
  | 61 => ⟨S50000x96, .f32⟩
  | 62 => ⟨S800000x1, .i1⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x96, .f32⟩
  | 72 => ⟨S_, .f32⟩
  | 73 => ⟨S800000x96, .i1⟩
  | 74 => ⟨S800000x96, .f32⟩
  | 75 => ⟨S800000x96, .f32⟩
  | 76 => ⟨S_, .f32⟩
  | 77 => ⟨S50000x96, .f32⟩
  | 78 => ⟨S800000x1, .i32⟩
  | 79 => ⟨S50000x96, .f32⟩
  | 80 => ⟨S800000, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x96, .f32⟩
  | 90 => ⟨S50000x96, .f32⟩
  | 91 => ⟨S50000x96, .f32⟩
  | 92 => ⟨S_, .i32⟩
  | 93 => ⟨S800000, .i32⟩
  | 94 => ⟨S800000, .i1⟩
  | 95 => ⟨S1x96x96, .f32⟩
  | 96 => ⟨S96x96, .f32⟩
  | 97 => ⟨S50000x96, .f32⟩
  | 98 => ⟨S800000x1, .i1⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x96, .f32⟩
  | 108 => ⟨S_, .f32⟩
  | 109 => ⟨S800000x96, .i1⟩
  | 110 => ⟨S800000x96, .f32⟩
  | 111 => ⟨S800000x96, .f32⟩
  | 112 => ⟨S_, .f32⟩
  | 113 => ⟨S50000x96, .f32⟩
  | 114 => ⟨S800000x1, .i32⟩
  | 115 => ⟨S50000x96, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x96, .f32⟩
  | 126 => ⟨S50000x96, .f32⟩
  | 127 => ⟨S50000x96, .f32⟩
  | _ => ⟨S50000x96, .f32⟩

abbrev hbmTy0_1 (i : Nat) : BufTy := match i % 128 with
  | 0 => ⟨S_, .f32⟩
  | 1 => ⟨S50000x96, .f32⟩
  | 2 => ⟨S50000x96, .f32⟩
  | 3 => ⟨S50000x96, .f32⟩
  | 4 => ⟨S1x96, .f32⟩
  | 5 => ⟨S50000x96, .f32⟩
  | 6 => ⟨S50000x96, .f32⟩
  | 7 => ⟨S_, .i32⟩
  | 8 => ⟨S800000, .i32⟩
  | 9 => ⟨S800000, .i1⟩
  | 10 => ⟨S1x96x96, .f32⟩
  | 11 => ⟨S96x96, .f32⟩
  | 12 => ⟨S50000x96, .f32⟩
  | 13 => ⟨S800000x1, .i1⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x96, .f32⟩
  | 23 => ⟨S_, .f32⟩
  | 24 => ⟨S800000x96, .i1⟩
  | 25 => ⟨S800000x96, .f32⟩
  | 26 => ⟨S800000x96, .f32⟩
  | 27 => ⟨S_, .f32⟩
  | 28 => ⟨S50000x96, .f32⟩
  | 29 => ⟨S800000x1, .i32⟩
  | 30 => ⟨S50000x96, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x96, .f32⟩
  | 41 => ⟨S50000x96, .f32⟩
  | 42 => ⟨S50000x96, .f32⟩
  | 43 => ⟨S_, .i32⟩
  | 44 => ⟨S800000, .i32⟩
  | 45 => ⟨S800000, .i1⟩
  | 46 => ⟨S1x96x96, .f32⟩
  | 47 => ⟨S96x96, .f32⟩
  | 48 => ⟨S50000x96, .f32⟩
  | 49 => ⟨S800000x1, .i1⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x96, .f32⟩
  | 59 => ⟨S_, .f32⟩
  | 60 => ⟨S800000x96, .i1⟩
  | 61 => ⟨S800000x96, .f32⟩
  | 62 => ⟨S800000x96, .f32⟩
  | 63 => ⟨S_, .f32⟩
  | 64 => ⟨S50000x96, .f32⟩
  | 65 => ⟨S800000x1, .i32⟩
  | 66 => ⟨S50000x96, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x96, .f32⟩
  | 77 => ⟨S50000x96, .f32⟩
  | 78 => ⟨S50000x96, .f32⟩
  | 79 => ⟨S_, .i32⟩
  | 80 => ⟨S800000, .i32⟩
  | 81 => ⟨S800000, .i1⟩
  | 82 => ⟨S1x96x96, .f32⟩
  | 83 => ⟨S96x96, .f32⟩
  | 84 => ⟨S50000x96, .f32⟩
  | 85 => ⟨S800000x1, .i1⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x96, .f32⟩
  | 95 => ⟨S_, .f32⟩
  | 96 => ⟨S800000x96, .i1⟩
  | 97 => ⟨S800000x96, .f32⟩
  | 98 => ⟨S800000x96, .f32⟩
  | 99 => ⟨S_, .f32⟩
  | 100 => ⟨S50000x96, .f32⟩
  | 101 => ⟨S800000x1, .i32⟩
  | 102 => ⟨S50000x96, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x96, .f32⟩
  | 113 => ⟨S50000x96, .f32⟩
  | 114 => ⟨S50000x96, .f32⟩
  | 115 => ⟨S_, .f32⟩
  | 116 => ⟨S50000x96, .f32⟩
  | 117 => ⟨S50000x96, .f32⟩
  | 118 => ⟨S_, .f32⟩
  | 119 => ⟨S512x96, .f32⟩
  | 120 => ⟨S50000x1, .i32⟩
  | 121 => ⟨S512x96, .f32⟩
  | 122 => ⟨S_, .f32⟩
  | 123 => ⟨S50000, .f32⟩
  | 124 => ⟨S_, .f32⟩
  | 125 => ⟨S512, .f32⟩
  | 126 => ⟨S50000x1, .i32⟩
  | 127 => ⟨S512, .f32⟩
  | _ => ⟨S50000x96, .f32⟩

abbrev hbmTy0_2 (i : Nat) : BufTy := match i % 128 with
  | 0 => ⟨S_, .f32⟩
  | 1 => ⟨S512, .f32⟩
  | 2 => ⟨S512, .f32⟩
  | 3 => ⟨S512x1, .f32⟩
  | 4 => ⟨S512x96, .f32⟩
  | 5 => ⟨S512x96, .f32⟩
  | 6 => ⟨S512x16, .f32⟩
  | 7 => ⟨S1x16, .f32⟩
  | 8 => ⟨S512x16, .f32⟩
  | 9 => ⟨S512x16, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_6 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_15 : Ref sig .tc := ⟨.hbm, 108, rfl⟩
abbrev main_call2_v0 : Ref sig .tc := ⟨.hbm, 109, rfl⟩
abbrev main_call2_v1 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call3_cst : Ref sig .tc := ⟨.hbm, 128, rfl⟩
abbrev main_call3_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_20 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_call4_v0 : Ref sig .tc := ⟨.hbm, 152, rfl⟩
abbrev main_call4_v1 : Ref sig .tc := ⟨.hbm, 153, rfl⟩
abbrev main_v107 : Ref sig .tc := ⟨.hbm, 154, rfl⟩
abbrev main_cst_23 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_24 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_c_26 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_c_27 : Ref sig .tc := ⟨.hbm, 178, rfl⟩
abbrev main_v127 : Ref sig .tc := ⟨.hbm, 179, rfl⟩
abbrev main_v128 : Ref sig .tc := ⟨.hbm, 180, rfl⟩
abbrev main_c_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_29 : Ref sig .tc := ⟨.hbm, 187, rfl⟩
abbrev main_call5_v0 : Ref sig .tc := ⟨.hbm, 188, rfl⟩
abbrev main_call5_v1 : Ref sig .tc := ⟨.hbm, 189, rfl⟩
abbrev main_v134 : Ref sig .tc := ⟨.hbm, 190, rfl⟩
abbrev main_cst_30 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_31 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_32 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_c_33 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_c_34 : Ref sig .tc := ⟨.hbm, 214, rfl⟩
abbrev main_v154 : Ref sig .tc := ⟨.hbm, 215, rfl⟩
abbrev main_v155 : Ref sig .tc := ⟨.hbm, 216, rfl⟩
abbrev main_c_35 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_36 : Ref sig .tc := ⟨.hbm, 223, rfl⟩
abbrev main_call6_v0 : Ref sig .tc := ⟨.hbm, 224, rfl⟩
abbrev main_call6_v1 : Ref sig .tc := ⟨.hbm, 225, rfl⟩
abbrev main_v161 : Ref sig .tc := ⟨.hbm, 226, rfl⟩
abbrev main_cst_37 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_38 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_39 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_call7_cst : Ref sig .tc := ⟨.hbm, 243, rfl⟩
abbrev main_call7_v0 : Ref sig .tc := ⟨.hbm, 244, rfl⟩
abbrev main_v175 : Ref sig .tc := ⟨.hbm, 245, rfl⟩
abbrev main_cst_40 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_41 : Ref sig .tc := ⟨.hbm, 250, rfl⟩
abbrev main_v179 : Ref sig .tc := ⟨.hbm, 251, rfl⟩
abbrev main_cst_42 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_cst_43 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S800000 : S_.BroadcastsInDim S800000 (![] : Fin 0 → Fin S800000.rank)
  slices_S3x96x96_S1x96x96_0_0_0 : S3x96x96.Slices ![0, 0, 0] S1x96x96
  shapeCasts_S1x96x96_S96x96 : S1x96x96.ShapeCasts S96x96
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  slices_S3x96x96_S1x96x96_1_0_0 : S3x96x96.Slices ![1, 0, 0] S1x96x96
  slices_S3x96x96_S1x96x96_2_0_0 : S3x96x96.Slices ![2, 0, 0] S1x96x96
  bcast_S_S512x96 : S_.BroadcastsInDim S512x96 (![] : Fin 0 → Fin S512x96.rank)
  bcast_S_S512 : S_.BroadcastsInDim S512 (![] : Fin 0 → Fin S512.rank)
  bcast_S512_S512x1_0 : S512.BroadcastsInDim S512x1 (![0] : Fin 1 → Fin S512x1.rank)
  bcast_S512x1_S512x96_0_1 : S512x1.BroadcastsInDim S512x96 (![0, 1] : Fin 2 → Fin S512x96.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  scatter_S512x96_S50000x1_S50000x96_1_0_0_1_wf : ScatterDims.WF S512x96 S50000x1 S50000x96 [1] [0] [0] 1
  scatter_S512_S50000x1_S50000_n_0_0_1_wf : ScatterDims.WF S512 S50000x1 S50000 [] [0] [0] 1
  dot_S512x96_S96x16_S512x16_1_0_0_1_n_n_wf : DotDims.WF S512x96 S96x16 S512x16 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x96_S96x16_S512x16_1_0_0_1_n_n : DotDims S512x96 S96x16 S512x16 where
  lhsContracting := [1]
  rhsContracting := [0]
  lhsNonContracting := [0]
  rhsNonContracting := [1]
  lhsBatch := []
  rhsBatch := []
  wf := dot_S512x96_S96x16_S512x16_1_0_0_1_n_n_wf

class Facts : Prop extends Facts₀ where

variable [Facts]
-- ==== Proof.KRun.lean ====
/-
  The idealized kernel's run, with its result named.

  The program is three kernel launches among stretches of host operations. Its run is followed boundary by boundary:
  the contents of every buffer after a host stretch are the stretch's operations applied to the contents before it, and
  after a launch each output array holds what the grid's points wrote back while every other buffer is as it was. The
  last boundary is the program's end, so the result array ends holding the last boundary's contents at the result
  buffer, and each argument array ends as it was launched (no stretch and no launch writes one).
-/
import proofs.«178041_j88648124990728_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents of
    the result buffer, and the argument arrays end as launched. -/
theorem run_result : θ_run defs (onTc (τ := τ) (main (F := F))) ⟨m, fun _ => 0, ρ⟩ (fun r => ∀ c : Dev nD,
      r.2.mem ((c.tc : Thread nD τ).loc main_v164) = W21 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v164 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c)⟩)

end Cert.KernelIdeal.Whole

end
-- ==== Proof.LibDense.lean ====
/-
  The dense maps of a relational graph-convolution network, on the extended reals.

  A layer of the network sends a node-feature matrix x (one row per node) to
      x · W_root + b   and   x · W_rel[r]   for each relation r,
  and the read-out sends the pooled features to  pooled · W_lin + b_lin.  Entry (p, q) of a product x · w is the sum
  over k of x(p, k) · w(k, q); the bias b adds b(q) to every row; W_rel[r] is the r-th K x N slab of a 3 x K x N array.
  These are stated once here, over any sizes, as functions of whole arrays; nothing in them needs the entries to be
  finite (a sum of products is read the same way at the infinities).
-/
import Idealize.ShloMosaic.Lib.ValueIdx
import Idealize.ShloMosaic.Lib.Pipeline.Value
import Idealize.ShloMosaic.PureOps.Ideal

noncomputable section

namespace Cert.Rgcn

open Idealize.ShloMosaic Idealize.ShloMosaic.ValueIdx

/-- The matrix product x · w: entry (p, q) is the sum over k of x(p, k) · w(k, q). -/
def linear {M K N : Nat} (x : FVec Ideal ⟨2, ![M, K]⟩ .f32) (w : FVec Ideal ⟨2, ![K, N]⟩ .f32) :
    FVec Ideal ⟨2, ![M, N]⟩ .f32 :=
  fun j => (∑ k : Fin K, x (ix2 (j 0) k) * w (ix2 k (j 1)) : EReal)

/-- The affine map x · w + b: the product with b(q) added in column q of every row. -/
def affine {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun j => (linear x w j + b (ix1 (j 1)) : EReal)

/-- The r-th K x N slab of a 3 x K x N array of weights. -/
def slab {K N : Nat} (w3 : FVec Ideal ⟨3, ![3, K, N]⟩ .f32) (r : Fin 3) : FVec Ideal ⟨2, ![K, N]⟩ .f32 :=
  fun i => w3 (ix3 r (i 0) (i 1))

theorem linear_apply {M K N : Nat} (x : FVec Ideal ⟨2, ![M, K]⟩ .f32) (w : FVec Ideal ⟨2, ![K, N]⟩ .f32)
    (p : Fin M) (q : Fin N) : linear x w (ix2 p q) = ∑ k : Fin K, x (ix2 p k) * w (ix2 k q) := rfl

theorem affine_apply {M K N : Nat} (x : FVec Ideal ⟨2, ![M, K]⟩ .f32) (w : FVec Ideal ⟨2, ![K, N]⟩ .f32)
    (b : FVec Ideal ⟨1, ![N]⟩ .f32) (p : Fin M) (q : Fin N) :
    affine x w b (ix2 p q) = (∑ k : Fin K, x (ix2 p k) * w (ix2 k q)) + b (ix1 q) := rfl

theorem slab_apply {K N : Nat} (w3 : FVec Ideal ⟨3, ![3, K, N]⟩ .f32) (r : Fin 3) (k : Fin K) (q : Fin N) :
    slab w3 r (ix2 k q) = w3 (ix3 r k q) := rfl

/-- A length-n vector reshaped to one row [1, n] and repeated down the rows of an [a, n] block, read at (p, q),
    is its entry q. -/
theorem rowBlock_apply {α : Type} {a n : Nat} (b : (⟨1, ![n]⟩ : Shape).Idx → α)
    (h1 : (⟨1, ![n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ b h1) h2 (ix2 p q) = b (ix1 q) := by
  rw [broadcastTo_apply (shapeCast ⟨2, ![1, n]⟩ b h1) h2 (ix2 p q) (ix2 (0 : Fin 1) q) (fun ax => by
    match ax with
    | ⟨0, _⟩ => rfl
    | ⟨1, _⟩ =>
      show q.val = if n = 1 then 0 else q.val
      split
      · have := q.isLt; omega
      · rfl)]
  rw [shapeCast_addUnit_apply ![n] b h1 (ix2 (0 : Fin 1) q)]
  exact congrArg b (funext fun d => by match d with | ⟨0, _⟩ => rfl)

/-- Entry j of the affine map of a block of rows is entry i of the affine map of the whole arrays, whenever the block's
    row j reads the whole array's row i, the weights and the bias are read at the same columns. -/
theorem affine_block {M M' K N : Nat} (X : FVec Ideal ⟨2, ![M, K]⟩ .f32) (W : FVec Ideal ⟨2, ![K, N]⟩ .f32)
    (B : FVec Ideal ⟨1, ![N]⟩ .f32) (x' : FVec Ideal ⟨2, ![M', K]⟩ .f32) (w' : FVec Ideal ⟨2, ![K, N]⟩ .f32)
    (b' : FVec Ideal ⟨1, ![N]⟩ .f32) (j : (⟨2, ![M', N]⟩ : Shape).Idx) (i : (⟨2, ![M, N]⟩ : Shape).Idx)
    (hx : ∀ k : Fin K, x' (ix2 (j 0) k) = X (ix2 (i 0) k)) (hw : ∀ k : Fin K, w' (ix2 k (j 1)) = W (ix2 k (i 1)))
    (hb : b' (ix1 (j 1)) = B (ix1 (i 1))) : affine x' w' b' j = affine X W B i := by
  unfold affine linear
  rw [hb]
  exact congrArg (· + B (ix1 (i 1))) (Finset.sum_congr rfl fun k _ => by rw [hx k, hw k])

/-- The same for the product with the r-th slab of a stack of weight matrices. -/
theorem linear_slab_block {M M' K N : Nat} (X : FVec Ideal ⟨2, ![M, K]⟩ .f32) (W3 : FVec Ideal ⟨3, ![3, K, N]⟩ .f32)
    (x' : FVec Ideal ⟨2, ![M', K]⟩ .f32) (w3' : FVec Ideal ⟨3, ![3, K, N]⟩ .f32) (r : Fin 3)
    (j : (⟨2, ![M', N]⟩ : Shape).Idx) (i : (⟨2, ![M, N]⟩ : Shape).Idx)
    (hx : ∀ k : Fin K, x' (ix2 (j 0) k) = X (ix2 (i 0) k))
    (hw : ∀ k : Fin K, w3' (ix3 r k (j 1)) = W3 (ix3 r k (i 1))) :
    linear x' (slab w3' r) j = linear X (slab W3 r) i := by
  unfold linear slab
  exact Finset.sum_congr rfl fun k _ => by rw [hx k]; exact congrArg (X (ix2 (i 0) k) * ·) (hw k)

/-- Loading the 1 x K x N rectangle at offset (r, 0, 0) of a 3 x K x N block and dropping its unit axis gives the
    r-th slab. -/
theorem slabLoad_eq {K N : Nat} (w3 : Vec Ideal ⟨3, ![3, K, N]⟩ .f32) (r : Fin 3)
    (inb : ∀ a, (![r.val, 0, 0] : Fin 3 → Nat) a + (⟨3, ![1, K, N]⟩ : Shape).size a ≤ (⟨3, ![3, K, N]⟩ : Shape).size a)
    (h : (⟨3, ![1, K, N]⟩ : Shape).ShapeCasts ⟨2, ![K, N]⟩) :
    shapeCast ⟨2, ![K, N]⟩
      (View.ld (Val := Elt Ideal) (e' := .f32) w3
        (Rect.unit (s := ⟨3, ![3, K, N]⟩) ![r.val, 0, 0] (⟨3, ![1, K, N]⟩ : Shape).size inb)) h
      = slab w3 r := by
  funext i
  obtain ⟨k, q, rfl⟩ : ∃ (k : Fin K) (q : Fin N), i = ix2 k q := ⟨i 0, i 1, eq_ix2 i⟩
  rw [shapeCast_dropUnit_apply ![K, N] _ h (ix2 k q)]
  refine congrArg w3 (funext fun a => Fin.ext ?_)
  match a with
  | ⟨0, _⟩ => show r.val + 1 * 0 = r.val; omega
  | ⟨1, _⟩ => show 0 + 1 * k.val = k.val; omega
  | ⟨2, _⟩ => show 0 + 1 * q.val = q.val; omega

/-- Slicing rows r … r of the leading axis of a 3 x K x N array and reshaping away the unit axis gives the r-th slab. -/
theorem sliceSlab_eq {K N : Nat} (w3 : FVec Ideal ⟨3, ![3, K, N]⟩ .f32) (r : Fin 3)
    (hs : (⟨3, ![3, K, N]⟩ : Shape).Slices ![r.val, 0, 0] ⟨3, ![1, K, N]⟩)
    (hc : (⟨3, ![1, K, N]⟩ : Shape).ShapeCasts ⟨2, ![K, N]⟩) :
    shapeCast ⟨2, ![K, N]⟩ (extractStridedSlice ⟨3, ![1, K, N]⟩ ![r.val, 0, 0] w3 hs) hc = slab w3 r := by
  funext i
  obtain ⟨k, q, rfl⟩ : ∃ (k : Fin K) (q : Fin N), i = ix2 k q := ⟨i 0, i 1, eq_ix2 i⟩
  rw [shapeCast_dropUnit_apply ![K, N] _ hc (ix2 k q)]
  exact extractStridedSlice_apply ![r.val, 0, 0] w3 hs (Fin.cons ⟨0, Nat.one_pos⟩ (ix2 k q)) (ix3 r k q) (fun a => by
    match a with
    | ⟨0, _⟩ => show r.val = r.val + 0; omega
    | ⟨1, _⟩ => show k.val = 0 + k.val; omega
    | ⟨2, _⟩ => show q.val = 0 + q.val; omega)

end Cert.Rgcn

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.LibDenseForms.lean ====
/-
  The two ways a program writes the dense maps of LibDense.lean, each shown to be that map.

  On the matrix unit: the operands are narrowed to bf16 (no change on the extended reals) and the product is
  accumulated into an all-zero block, so entry (p, q) is 0 + the sum over k of x(p, k) · w(k, q); the bias, a length-N
  vector, is reshaped to one row and repeated down the rows before it is added. On the host: one dot_general of the
  whole arrays, and the bias broadcast along axis 1 and then down the rows. Both are the functions `linear` and
  `affine`, for any dimension numbers that describe an ordinary M x K by K x N product.
-/
import proofs.«178041_j88648124990728_1_alg».proof.Proof.LibDense
import proofs.«178041_j88648124990728_1_alg».proof.Proof.LibPlainDot
import proofs.«178041_j88648124990728_1_alg».proof.Proof.LibRowBroadcast

noncomputable section

namespace Cert.Rgcn

open Idealize.ShloMosaic Idealize.ShloMosaic.ValueIdx

section Forms

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The matrix unit's product of the bf16-narrowed operands, accumulated from zero, is x · w. -/
theorem unitProduct_eq (prec : Option ContractPrecision) (hb : FTy.bits .bf16 < FTy.bits .f32)
    (x : FVec Ideal ⟨2, ![M, K]⟩ .f32) (w : FVec Ideal ⟨2, ![K, N]⟩ .f32) :
    FloatOps.matmul D prec (truncf .bf16 x hb) (truncf .bf16 w hb) (constant ⟨2, ![M, N]⟩ .f32 0x00000000#32)
      = linear x w := by
  funext j
  obtain ⟨p, q, rfl⟩ : ∃ (p : Fin M) (q : Fin N), j = ix2 p q := ⟨j 0, j 1, eq_ix2 j⟩
  exact PlainDot.matmul_zero_apply D hlc hrc hln hrn hlb hrb hr hs prec (truncf .bf16 x hb) (truncf .bf16 w hb) p q

include hlc hrc hln hrn hlb hrb hr hs in
/-- The same product with the bias row added: x · w + b. -/
theorem unitAffine_eq (prec : Option ContractPrecision) (hb : FTy.bits .bf16 < FTy.bits .f32)
    (x : FVec Ideal ⟨2, ![M, K]⟩ .f32) (w : FVec Ideal ⟨2, ![K, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩) :
    addf (FloatOps.matmul D prec (truncf .bf16 x hb) (truncf .bf16 w hb) (constant ⟨2, ![M, N]⟩ .f32 0x00000000#32))
        (broadcastTo ⟨2, ![M, N]⟩ (shapeCast ⟨2, ![1, N]⟩ b h1) h2)
      = affine x w b := by
  funext j
  obtain ⟨p, q, rfl⟩ : ∃ (p : Fin M) (q : Fin N), j = ix2 p q := ⟨j 0, j 1, eq_ix2 j⟩
  rw [addf_apply, unitProduct_eq D hlc hrc hln hrn hlb hrb hr hs prec hb x w, rowBlock_apply b h1 h2 p q]
  rfl

include hlc hrc hln hrn hlb hrb hr hs in
/-- The host's product of the whole arrays is x · w. -/
theorem hostProduct_eq (prec : Option ContractPrecision) (sched : HostSchedule)
    (x : FVec Ideal ⟨2, ![M, K]⟩ .f32) (w : FVec Ideal ⟨2, ![K, N]⟩ .f32) :
    FloatOps.dotGeneral D prec sched x w = linear x w := by
  funext j
  obtain ⟨p, q, rfl⟩ : ∃ (p : Fin M) (q : Fin N), j = ix2 p q := ⟨j 0, j 1, eq_ix2 j⟩
  exact PlainDot.dotGeneral_apply D hlc hrc hln hrn hlb hrb hr hs prec sched x w p q

include hlc hrc hln hrn hlb hrb hr hs in
/-- The host's product with the bias broadcast over the rows: x · w + b. -/
theorem hostAffine_eq (prec : Option ContractPrecision) (sched : HostSchedule)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (FloatOps.dotGeneral D prec sched x w)
        (broadcastInDim ⟨2, ![M, N]⟩ ![0, 1] h2 (broadcastInDim ⟨2, ![1, N]⟩ ![1] h1 b))
      = affine x w b := by
  funext j
  obtain ⟨p, q, rfl⟩ : ∃ (p : Fin M) (q : Fin N), j = ix2 p q := ⟨j 0, j 1, eq_ix2 j⟩
  rw [addf_apply, hostProduct_eq D hlc hrc hln hrn hlb hrb hr hs prec sched x w, RowBroadcast.rowsOf_apply b h1 h2 p q]
  rfl

end Forms

end Cert.Rgcn

end
-- ==== Proof.KPay.lean ====
/-
  What each kernel body computes from the blocks it loads, as a dense map of LibDense.lean.

  Both projection launches run the same body on a block of 5000 rows (the second first reshapes its block to the shape
  it already has): the root output is block · W_root + b, and each
  of the three relation outputs is block · (one 96 x 96 slab of the relation weights). The read-out launch computes
  pooled · W_lin + b_lin on its one whole block. Narrowing to bf16 changes nothing on the extended reals, and a
  product accumulated from the zero block is the plain sum of products.
-/
import proofs.«178041_j88648124990728_1_alg».proof.Proof.Gen.KernelIdeal.Skeleton
import proofs.«178041_j88648124990728_1_alg».proof.Proof.LibDenseForms

noncomputable section

namespace Cert.KernelIdeal.Whole

open Cert.KernelIdeal Cert.KernelIdeal.Gen Cert.Rgcn
open Idealize.ShloMosaic Idealize.ShloMosaic.ValueIdx

/-- The offsets of a whole-block access, on one, two axes. -/
theorem zero1 : (![0] : Fin 1 → Nat) = fun _ => 0 := funext fun a => by fin_cases a <;> rfl
theorem zero2 : (![0, 0] : Fin 2 → Nat) = fun _ => 0 := funext fun a => by fin_cases a <;> rfl

/-- Launch 0, the root output: the block product of the bf16-narrowed block of rows and root weights, accumulated
    from zero, plus the bias row — the affine map of the block. -/
theorem root0_pay (x : Vec Ideal S5000x96 .f32) (w : Vec Ideal S96x96 .f32) (b : Vec Ideal S96 .f32) :
    k0_pay2 (F := Ideal) x w b = affine (M := 5000) (K := 96) (N := 96) x w b := by
  unfold k0_pay2 k0_pay1
  exact unitAffine_eq dot_S5000x96_S96x96_S5000x96_1_0_0_1_n_n rfl rfl rfl rfl rfl rfl rfl rfl none bitsLt_bf16_f32 x w b
    shapeCasts_S96_S1x96 broadcasts_S1x96_S5000x96

/-- Launch 0, relation output 0: the block product with the loaded 1 x 96 x 96 rectangle read as a 96 x 96 matrix. -/
theorem rel0_pay3 (x : Vec Ideal S5000x96 .f32) (w1 : Vec Ideal S1x96x96 .f32) :
    k0_pay3 (F := Ideal) x w1
      = linear (M := 5000) (K := 96) (N := 96) x (shapeCast S96x96 w1 shapeCasts_S1x96x96_S96x96) := by
  unfold k0_pay3 k0_pay1
  exact unitProduct_eq dot_S5000x96_S96x96_S5000x96_1_0_0_1_n_n rfl rfl rfl rfl rfl rfl rfl rfl none bitsLt_bf16_f32 x
    (shapeCast S96x96 w1 shapeCasts_S1x96x96_S96x96)

/-- Launch 0, relation output 1: the block product with the loaded 1 x 96 x 96 rectangle read as a 96 x 96 matrix. -/
theorem rel0_pay4 (x : Vec Ideal S5000x96 .f32) (w1 : Vec Ideal S1x96x96 .f32) :
    k0_pay4 (F := Ideal) x w1
      = linear (M := 5000) (K := 96) (N := 96) x (shapeCast S96x96 w1 shapeCasts_S1x96x96_S96x96) := by
  unfold k0_pay4 k0_pay1
  exact unitProduct_eq dot_S5000x96_S96x96_S5000x96_1_0_0_1_n_n rfl rfl rfl rfl rfl rfl rfl rfl none bitsLt_bf16_f32 x
    (shapeCast S96x96 w1 shapeCasts_S1x96x96_S96x96)

/-- Launch 0, relation output 2: the block product with the loaded 1 x 96 x 96 rectangle read as a 96 x 96 matrix. -/
theorem rel0_pay5 (x : Vec Ideal S5000x96 .f32) (w1 : Vec Ideal S1x96x96 .f32) :
    k0_pay5 (F := Ideal) x w1
      = linear (M := 5000) (K := 96) (N := 96) x (shapeCast S96x96 w1 shapeCasts_S1x96x96_S96x96) := by
  unfold k0_pay5 k0_pay1
  exact unitProduct_eq dot_S5000x96_S96x96_S5000x96_1_0_0_1_n_n rfl rfl rfl rfl rfl rfl rfl rfl none bitsLt_bf16_f32 x
    (shapeCast S96x96 w1 shapeCasts_S1x96x96_S96x96)

/-- Launch 1, the root output: the block product of the bf16-narrowed block of rows and root weights, accumulated
    from zero, plus the bias row — the affine map of the block. -/
theorem root1_pay (x : Vec Ideal S5000x96 .f32) (w : Vec Ideal S96x96 .f32) (b : Vec Ideal S96 .f32) :
    k1_pay2 (F := Ideal) x w b = affine (M := 5000) (K := 96) (N := 96) x w b := by
  unfold k1_pay2 k1_pay1
  dsimp only
  rw [shapeCast_self x shapeCasts_S5000x96_S5000x96]
  exact unitAffine_eq dot_S5000x96_S96x96_S5000x96_1_0_0_1_n_n rfl rfl rfl rfl rfl rfl rfl rfl none bitsLt_bf16_f32 x w b
    shapeCasts_S96_S1x96 broadcasts_S1x96_S5000x96

/-- Launch 1, relation output 0: the block product with the loaded 1 x 96 x 96 rectangle read as a 96 x 96 matrix. -/
theorem rel1_pay3 (x : Vec Ideal S5000x96 .f32) (w1 : Vec Ideal S1x96x96 .f32) :
    k1_pay3 (F := Ideal) x w1
      = linear (M := 5000) (K := 96) (N := 96) x (shapeCast S96x96 w1 shapeCasts_S1x96x96_S96x96) := by
  unfold k1_pay3 k1_pay1
  dsimp only
  rw [shapeCast_self x shapeCasts_S5000x96_S5000x96]
  exact unitProduct_eq dot_S5000x96_S96x96_S5000x96_1_0_0_1_n_n rfl rfl rfl rfl rfl rfl rfl rfl none bitsLt_bf16_f32 x
    (shapeCast S96x96 w1 shapeCasts_S1x96x96_S96x96)

/-- Launch 1, relation output 1: the block product with the loaded 1 x 96 x 96 rectangle read as a 96 x 96 matrix. -/
theorem rel1_pay4 (x : Vec Ideal S5000x96 .f32) (w1 : Vec Ideal S1x96x96 .f32) :
    k1_pay4 (F := Ideal) x w1
      = linear (M := 5000) (K := 96) (N := 96) x (shapeCast S96x96 w1 shapeCasts_S1x96x96_S96x96) := by
  unfold k1_pay4 k1_pay1
  dsimp only
  rw [shapeCast_self x shapeCasts_S5000x96_S5000x96]
  exact unitProduct_eq dot_S5000x96_S96x96_S5000x96_1_0_0_1_n_n rfl rfl rfl rfl rfl rfl rfl rfl none bitsLt_bf16_f32 x
    (shapeCast S96x96 w1 shapeCasts_S1x96x96_S96x96)

/-- Launch 1, relation output 2: the block product with the loaded 1 x 96 x 96 rectangle read as a 96 x 96 matrix. -/
theorem rel1_pay5 (x : Vec Ideal S5000x96 .f32) (w1 : Vec Ideal S1x96x96 .f32) :
    k1_pay5 (F := Ideal) x w1
      = linear (M := 5000) (K := 96) (N := 96) x (shapeCast S96x96 w1 shapeCasts_S1x96x96_S96x96) := by
  unfold k1_pay5 k1_pay1
  dsimp only
  rw [shapeCast_self x shapeCasts_S5000x96_S5000x96]
  exact unitProduct_eq dot_S5000x96_S96x96_S5000x96_1_0_0_1_n_n rfl rfl rfl rfl rfl rfl rfl rfl none bitsLt_bf16_f32 x
    (shapeCast S96x96 w1 shapeCasts_S1x96x96_S96x96)

/-- The read-out launch: pooled · W_lin + b_lin on the whole 512 x 96 block (its leading reshape is to the same shape). -/
theorem out2_pay (x : Vec Ideal S512x96 .f32) (w : Vec Ideal S96x16 .f32) (b : Vec Ideal S16 .f32) :
    k2_pay1 (F := Ideal) x w b = affine (M := 512) (K := 96) (N := 16) x w b := by
  unfold k2_pay1
  dsimp only
  rw [shapeCast_self x shapeCasts_S512x96_S512x96]
  exact unitAffine_eq dot_S512x96_S96x16_S512x16_1_0_0_1_n_n rfl rfl rfl rfl rfl rfl rfl rfl none bitsLt_bf16_f32 x w b
    shapeCasts_S16_S1x16 broadcasts_S1x16_S512x16

end Cert.KernelIdeal.Whole

end
-- ==== Proof.KReg0.lean ====
/-
  Launch 0 of the projection kernel, from any contents V of the buffers at its entry: what its four output arrays hold
  when it returns.

  The grid has ten points; point t works on rows 5000·t … 5000·t + 4999 of the node features and sees the whole root
  weights, bias and relation weights. It writes back, to the same rows of each output, the affine map (root output) or
  the product with one slab of the relation weights (relation outputs) of its block. A row of a product depends only on
  the same row of the left operand, so block t of the output is block t of the whole-array map; the ten blocks tile
  the 50000 rows, so each output array ends holding the whole-array map of the entry contents.
-/
import proofs.«178041_j88648124990728_1_alg».proof.Proof.Gen.KernelIdeal.Frame
import proofs.«178041_j88648124990728_1_alg».proof.Proof.KPay

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the ten grid points: the feature block and the four output blocks move with the
    point along the rows; the weights, the bias and the relation weights stay at block 0. -/
theorem idx0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 3) = 0
    ∧ win0_3.index t (1 : Fin 3) = 0
    ∧ win0_3.index t (2 : Fin 3) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

/-- The body's load of the 1 x 96 x 96 rectangle at offset (0, 0, 0), read as a matrix, is slab 0. -/
theorem slab0_load0 (x3 : Vec Ideal S3x96x96 .f32) :
    shapeCast S96x96 (View.ld x3 r0_3) shapeCasts_S1x96x96_S96x96 = slab (K := 96) (N := 96) x3 0 :=
  slabLoad_eq (K := 96) (N := 96) x3 0 inb_S3x96x96_S1x96x96_0_0_0 shapeCasts_S1x96x96_S96x96

/-- The body's load of the 1 x 96 x 96 rectangle at offset (1, 0, 0), read as a matrix, is slab 1. -/
theorem slab0_load1 (x3 : Vec Ideal S3x96x96 .f32) :
    shapeCast S96x96 (View.ld x3 r0_4) shapeCasts_S1x96x96_S96x96 = slab (K := 96) (N := 96) x3 1 :=
  slabLoad_eq (K := 96) (N := 96) x3 1 inb_S3x96x96_S1x96x96_1_0_0 shapeCasts_S1x96x96_S96x96

/-- The body's load of the 1 x 96 x 96 rectangle at offset (2, 0, 0), read as a matrix, is slab 2. -/
theorem slab0_load2 (x3 : Vec Ideal S3x96x96 .f32) :
    shapeCast S96x96 (View.ld x3 r0_5) shapeCasts_S1x96x96_S96x96 = slab (K := 96) (N := 96) x3 2 :=
  slabLoad_eq (K := 96) (N := 96) x3 2 inb_S3x96x96_S1x96x96_2_0_0 shapeCasts_S1x96x96_S96x96

/-- What point t writes back to the root output is block t of (entry rows) · W_root + b. -/
theorem flushed0_4_eq (c : Dev nD) (t : Fin cfg0.N) :
    (dat0 V c).flushed 4 t = ((cfg0.win 4).blk t).view.read (Elt Ideal)
      (affine (M := 50000) (K := 96) (N := 96) (V c main_arg0) (V c main_arg5) (V c main_arg6)) := by
  show (cfg0.win 4).cut (grid0.coords t) ((dat0 V c).after 4 t) = _
  rw [after0_4]
  unfold out0_4
  rw [View.canon_unit_zero zero2]
  simp only [View.ld_unit_zero (S := S5000x96) zero2, View.ld_unit_zero (S := S96x96) zero2, View.ld_unit_zero (S := S96) zero1]
  rw [root0_pay]
  obtain ⟨x0, x1, w0, w1, b0, s0, s1, s2, o40, o41, o50, o51, o60, o61, o70, o71⟩ := idx0 t
  funext j
  show affine (M := 5000) (K := 96) (N := 96) (iblk0 V c 0 t) (iblk0 V c 1 t) (iblk0 V c 2 t) j
      = affine (M := 50000) (K := 96) (N := 96) (V c main_arg0) (V c main_arg5) (V c main_arg6) (((cfg0.win 4).blk t).view.emb j)
  refine affine_block _ _ _ _ _ _ j _ (fun k => ?_) (fun k => ?_) ?_
  ·
    have h : ((cfg0.win 0).blk t).view.emb (ix2 (j 0) k) = ix2 ((((cfg0.win 4).blk t).view.emb j) 0) k := by
      funext a; apply Fin.ext
      match a with
      | ⟨0, _⟩ => show win0_0.index t (0 : Fin 2) * 5000 + 1 * (j 0).val = win0_4.index t (0 : Fin 2) * 5000 + 1 * (j 0).val; omega
      | ⟨1, _⟩ => show win0_0.index t (1 : Fin 2) * 96 + 1 * k.val = k.val; omega
    exact congrArg (V c main_arg0) h
  · have h : ((cfg0.win 1).blk t).view.emb (ix2 k (j 1)) = ix2 k ((((cfg0.win 4).blk t).view.emb j) 1) := by
      funext a; apply Fin.ext
      match a with
      | ⟨0, _⟩ => show win0_1.index t (0 : Fin 2) * 96 + 1 * k.val = k.val; omega
      | ⟨1, _⟩ => show win0_1.index t (1 : Fin 2) * 96 + 1 * (j 1).val = win0_4.index t (1 : Fin 2) * 96 + 1 * (j 1).val; omega
    exact congrArg (V c main_arg5) h
  · have h : ((cfg0.win 2).blk t).view.emb (ix1 (j 1)) = ix1 ((((cfg0.win 4).blk t).view.emb j) 1) := by
      funext a; apply Fin.ext
      match a with
      | ⟨0, _⟩ => show win0_2.index t (0 : Fin 1) * 96 + 1 * (j 1).val = win0_4.index t (1 : Fin 2) * 96 + 1 * (j 1).val; omega
    exact congrArg (V c main_arg6) h

/-- An index of output array 0 is in point t's block iff each coordinate is in the block's range on its axis. -/
theorem mem_blk0_4 (t : Fin cfg0.N) (i : S50000x96.Idx) :
    i ∈ ((cfg0.win 4).blk t).view.set ↔ ∀ a : Fin 2, win0_4.index t a * S5000x96.size a ≤ (i a).val ∧ (i a).val < win0_4.index t a * S5000x96.size a + S5000x96.size a := by
  show i ∈ ((View.whole main_v4_0).slice (win0_4.rect t)).set ↔ _
  rw [View.set_slice_whole, Rect.mem_set_unit]
  exact Iff.rfl

/-- Row r of the array lies in the block of point r / 5000: the ten blocks of 5000 rows tile the 50000 rows. -/
theorem covered0_4 (i : S50000x96.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 96 := (i 1).isLt
  have hlt : (i 0).val / 5000 < cfg0.N := by rw [hN]; omega
  refine ⟨⟨(i 0).val / 5000, hlt⟩, flush0_4 _, ?_⟩
  rw [mem_blk0_4]
  obtain ⟨x0, x1, w0, w1, b0, s0, s1, s2, o40, o41, o50, o51, o60, o61, o70, o71⟩ := idx0 ⟨(i 0).val / 5000, hlt⟩
  have hv : (⟨(i 0).val / 5000, hlt⟩ : Fin cfg0.N).val = (i 0).val / 5000 := rfl
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    omega
  | ⟨1, _⟩ =>
    show win0_4.index ⟨(i 0).val / 5000, hlt⟩ (1 : Fin 2) * 96 ≤ (i 1).val ∧ (i 1).val < win0_4.index ⟨(i 0).val / 5000, hlt⟩ (1 : Fin 2) * 96 + 96
    omega

/-- After the launch, the root output holds (entry rows) · W_root + b, whole. -/
theorem root0_final (c : Dev nD) : (dat0 V c).arrAt 4 cfg0.N
    = affine (M := 50000) (K := 96) (N := 96) (V c main_arg0) (V c main_arg5) (V c main_arg6) :=
  (dat0 V c).arrAt_eq_of_cover 4 _ (fun t _ => flushed0_4_eq V c t) (fun i => covered0_4 i)

/-- What point t writes back to relation output 0 is block t of (entry rows) · (slab 0 of the relation weights). -/
theorem flushed0_5_eq (c : Dev nD) (t : Fin cfg0.N) :
    (dat0 V c).flushed 5 t = ((cfg0.win 5).blk t).view.read (Elt Ideal)
      (linear (M := 50000) (K := 96) (N := 96) (V c main_arg0) (slab (K := 96) (N := 96) (V c main_arg4) 0)) := by
  show (cfg0.win 5).cut (grid0.coords t) ((dat0 V c).after 5 t) = _
  rw [after0_5]
  unfold out0_5
  rw [View.canon_unit_zero zero2]
  simp only [View.ld_unit_zero (S := S5000x96) zero2]
  rw [rel0_pay3, slab0_load0]
  obtain ⟨x0, x1, w0, w1, b0, s0, s1, s2, o40, o41, o50, o51, o60, o61, o70, o71⟩ := idx0 t
  funext j
  show linear (M := 5000) (K := 96) (N := 96) (iblk0 V c 0 t) (slab (K := 96) (N := 96) (iblk0 V c 3 t) 0) j
      = linear (M := 50000) (K := 96) (N := 96) (V c main_arg0) (slab (K := 96) (N := 96) (V c main_arg4) 0) (((cfg0.win 5).blk t).view.emb j)
  refine linear_slab_block _ _ _ _ 0 j _ (fun k => ?_) (fun k => ?_)
  ·
    have h : ((cfg0.win 0).blk t).view.emb (ix2 (j 0) k) = ix2 ((((cfg0.win 5).blk t).view.emb j) 0) k := by
      funext a; apply Fin.ext
      match a with
      | ⟨0, _⟩ => show win0_0.index t (0 : Fin 2) * 5000 + 1 * (j 0).val = win0_5.index t (0 : Fin 2) * 5000 + 1 * (j 0).val; omega
      | ⟨1, _⟩ => show win0_0.index t (1 : Fin 2) * 96 + 1 * k.val = k.val; omega
    exact congrArg (V c main_arg0) h
  · have h : ((cfg0.win 3).blk t).view.emb (ix3 (0 : Fin 3) k (j 1)) = ix3 (0 : Fin 3) k ((((cfg0.win 5).blk t).view.emb j) 1) := by
      funext a; apply Fin.ext
      match a with
      | ⟨0, _⟩ => show win0_3.index t (0 : Fin 3) * 3 + 1 * 0 = 0; omega
      | ⟨1, _⟩ => show win0_3.index t (1 : Fin 3) * 96 + 1 * k.val = k.val; omega
      | ⟨2, _⟩ => show win0_3.index t (2 : Fin 3) * 96 + 1 * (j 1).val = win0_5.index t (1 : Fin 2) * 96 + 1 * (j 1).val; omega
    exact congrArg (V c main_arg4) h

/-- An index of output array 1 is in point t's block iff each coordinate is in the block's range on its axis. -/
theorem mem_blk0_5 (t : Fin cfg0.N) (i : S50000x96.Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v4_1).slice (win0_5.rect t)).set ↔ _
  rw [View.set_slice_whole, Rect.mem_set_unit]
  exact Iff.rfl

/-- Row r of the array lies in the block of point r / 5000: the ten blocks of 5000 rows tile the 50000 rows. -/
theorem covered0_5 (i : S50000x96.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 96 := (i 1).isLt
  have hlt : (i 0).val / 5000 < cfg0.N := by rw [hN]; omega
  refine ⟨⟨(i 0).val / 5000, hlt⟩, flush0_5 _, ?_⟩
  rw [mem_blk0_5]
  obtain ⟨x0, x1, w0, w1, b0, s0, s1, s2, o40, o41, o50, o51, o60, o61, o70, o71⟩ := idx0 ⟨(i 0).val / 5000, hlt⟩
  have hv : (⟨(i 0).val / 5000, hlt⟩ : Fin cfg0.N).val = (i 0).val / 5000 := rfl
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    omega
  | ⟨1, _⟩ =>
    show win0_5.index ⟨(i 0).val / 5000, hlt⟩ (1 : Fin 2) * 96 ≤ (i 1).val ∧ (i 1).val < win0_5.index ⟨(i 0).val / 5000, hlt⟩ (1 : Fin 2) * 96 + 96
    omega

/-- After the launch, relation output 0 holds (entry rows) · (slab 0), whole. -/
theorem rel0_0_final (c : Dev nD) : (dat0 V c).arrAt 5 cfg0.N
    = linear (M := 50000) (K := 96) (N := 96) (V c main_arg0) (slab (K := 96) (N := 96) (V c main_arg4) 0) :=
  (dat0 V c).arrAt_eq_of_cover 5 _ (fun t _ => flushed0_5_eq V c t) (fun i => covered0_5 i)

/-- What point t writes back to relation output 1 is block t of (entry rows) · (slab 1 of the relation weights). -/
theorem flushed0_6_eq (c : Dev nD) (t : Fin cfg0.N) :
    (dat0 V c).flushed 6 t = ((cfg0.win 6).blk t).view.read (Elt Ideal)
      (linear (M := 50000) (K := 96) (N := 96) (V c main_arg0) (slab (K := 96) (N := 96) (V c main_arg4) 1)) := by
  show (cfg0.win 6).cut (grid0.coords t) ((dat0 V c).after 6 t) = _
  rw [after0_6]
  unfold out0_6
  rw [View.canon_unit_zero zero2]
  simp only [View.ld_unit_zero (S := S5000x96) zero2]
  rw [rel0_pay4, slab0_load1]
  obtain ⟨x0, x1, w0, w1, b0, s0, s1, s2, o40, o41, o50, o51, o60, o61, o70, o71⟩ := idx0 t
  funext j
  show linear (M := 5000) (K := 96) (N := 96) (iblk0 V c 0 t) (slab (K := 96) (N := 96) (iblk0 V c 3 t) 1) j
      = linear (M := 50000) (K := 96) (N := 96) (V c main_arg0) (slab (K := 96) (N := 96) (V c main_arg4) 1) (((cfg0.win 6).blk t).view.emb j)
  refine linear_slab_block _ _ _ _ 1 j _ (fun k => ?_) (fun k => ?_)
  ·
    have h : ((cfg0.win 0).blk t).view.emb (ix2 (j 0) k) = ix2 ((((cfg0.win 6).blk t).view.emb j) 0) k := by
      funext a; apply Fin.ext
      match a with
      | ⟨0, _⟩ => show win0_0.index t (0 : Fin 2) * 5000 + 1 * (j 0).val = win0_6.index t (0 : Fin 2) * 5000 + 1 * (j 0).val; omega
      | ⟨1, _⟩ => show win0_0.index t (1 : Fin 2) * 96 + 1 * k.val = k.val; omega
    exact congrArg (V c main_arg0) h
  · have h : ((cfg0.win 3).blk t).view.emb (ix3 (1 : Fin 3) k (j 1)) = ix3 (1 : Fin 3) k ((((cfg0.win 6).blk t).view.emb j) 1) := by
      funext a; apply Fin.ext
      match a with
      | ⟨0, _⟩ => show win0_3.index t (0 : Fin 3) * 3 + 1 * 1 = 1; omega
      | ⟨1, _⟩ => show win0_3.index t (1 : Fin 3) * 96 + 1 * k.val = k.val; omega
      | ⟨2, _⟩ => show win0_3.index t (2 : Fin 3) * 96 + 1 * (j 1).val = win0_6.index t (1 : Fin 2) * 96 + 1 * (j 1).val; omega
    exact congrArg (V c main_arg4) h

/-- An index of output array 2 is in point t's block iff each coordinate is in the block's range on its axis. -/
theorem mem_blk0_6 (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v4_2).slice (win0_6.rect t)).set ↔ _
  rw [View.set_slice_whole, Rect.mem_set_unit]
  exact Iff.rfl

/-- Row r of the array lies in the block of point r / 5000: the ten blocks of 5000 rows tile the 50000 rows. -/
theorem covered0_6 (i : S50000x96.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 96 := (i 1).isLt
  have hlt : (i 0).val / 5000 < cfg0.N := by rw [hN]; omega
  refine ⟨⟨(i 0).val / 5000, hlt⟩, flush0_6 _, ?_⟩
  rw [mem_blk0_6]
  obtain ⟨x0, x1, w0, w1, b0, s0, s1, s2, o40, o41, o50, o51, o60, o61, o70, o71⟩ := idx0 ⟨(i 0).val / 5000, hlt⟩
  have hv : (⟨(i 0).val / 5000, hlt⟩ : Fin cfg0.N).val = (i 0).val / 5000 := rfl
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    omega
  | ⟨1, _⟩ =>
    show win0_6.index ⟨(i 0).val / 5000, hlt⟩ (1 : Fin 2) * 96 ≤ (i 1).val ∧ (i 1).val < win0_6.index ⟨(i 0).val / 5000, hlt⟩ (1 : Fin 2) * 96 + 96
    omega

/-- After the launch, relation output 1 holds (entry rows) · (slab 1), whole. -/
theorem rel0_1_final (c : Dev nD) : (dat0 V c).arrAt 6 cfg0.N
    = linear (M := 50000) (K := 96) (N := 96) (V c main_arg0) (slab (K := 96) (N := 96) (V c main_arg4) 1) :=
  (dat0 V c).arrAt_eq_of_cover 6 _ (fun t _ => flushed0_6_eq V c t) (fun i => covered0_6 i)

/-- What point t writes back to relation output 2 is block t of (entry rows) · (slab 2 of the relation weights). -/
theorem flushed0_7_eq (c : Dev nD) (t : Fin cfg0.N) :
    (dat0 V c).flushed 7 t = ((cfg0.win 7).blk t).view.read (Elt Ideal)
      (linear (M := 50000) (K := 96) (N := 96) (V c main_arg0) (slab (K := 96) (N := 96) (V c main_arg4) 2)) := by
  show (cfg0.win 7).cut (grid0.coords t) ((dat0 V c).after 7 t) = _
  rw [after0_7]
  unfold out0_7
  rw [View.canon_unit_zero zero2]
  simp only [View.ld_unit_zero (S := S5000x96) zero2]
  rw [rel0_pay5, slab0_load2]
  obtain ⟨x0, x1, w0, w1, b0, s0, s1, s2, o40, o41, o50, o51, o60, o61, o70, o71⟩ := idx0 t
  funext j
  show linear (M := 5000) (K := 96) (N := 96) (iblk0 V c 0 t) (slab (K := 96) (N := 96) (iblk0 V c 3 t) 2) j
      = linear (M := 50000) (K := 96) (N := 96) (V c main_arg0) (slab (K := 96) (N := 96) (V c main_arg4) 2) (((cfg0.win 7).blk t).view.emb j)
  refine linear_slab_block _ _ _ _ 2 j _ (fun k => ?_) (fun k => ?_)
  ·
    have h : ((cfg0.win 0).blk t).view.emb (ix2 (j 0) k) = ix2 ((((cfg0.win 7).blk t).view.emb j) 0) k := by
      funext a; apply Fin.ext
      match a with
      | ⟨0, _⟩ => show win0_0.index t (0 : Fin 2) * 5000 + 1 * (j 0).val = win0_7.index t (0 : Fin 2) * 5000 + 1 * (j 0).val; omega
      | ⟨1, _⟩ => show win0_0.index t (1 : Fin 2) * 96 + 1 * k.val = k.val; omega
    exact congrArg (V c main_arg0) h
  · have h : ((cfg0.win 3).blk t).view.emb (ix3 (2 : Fin 3) k (j 1)) = ix3 (2 : Fin 3) k ((((cfg0.win 7).blk t).view.emb j) 1) := by
      funext a; apply Fin.ext
      match a with
      | ⟨0, _⟩ => show win0_3.index t (0 : Fin 3) * 3 + 1 * 2 = 2; omega
      | ⟨1, _⟩ => show win0_3.index t (1 : Fin 3) * 96 + 1 * k.val = k.val; omega
      | ⟨2, _⟩ => show win0_3.index t (2 : Fin 3) * 96 + 1 * (j 1).val = win0_7.index t (1 : Fin 2) * 96 + 1 * (j 1).val; omega
    exact congrArg (V c main_arg4) h

/-- An index of output array 3 is in point t's block iff each coordinate is in the block's range on its axis. -/
theorem mem_blk0_7 (t : Fin cfg0.N) (i : S50000x96.Idx) :
    i ∈ ((cfg0.win 7).blk t).view.set ↔ ∀ a : Fin 2, win0_7.index t a * S5000x96.size a ≤ (i a).val ∧ (i a).val < win0_7.index t a * S5000x96.size a + S5000x96.size a := by
  show i ∈ ((View.whole main_v4_3).slice (win0_7.rect t)).set ↔ _
  rw [View.set_slice_whole, Rect.mem_set_unit]
  exact Iff.rfl

/-- Row r of the array lies in the block of point r / 5000: the ten blocks of 5000 rows tile the 50000 rows. -/
theorem covered0_7 (i : S50000x96.Idx) :
    ∃ t : Fin cfg0.N, (cfg0.win 7).flush t = true ∧ i ∈ ((cfg0.win 7).blk t).view.set := by
  have hN : cfg0.N = 10 := N_0
  have hi0 : (i 0).val < 50000 := (i 0).isLt
  have hi1 : (i 1).val < 96 := (i 1).isLt
  have hlt : (i 0).val / 5000 < cfg0.N := by rw [hN]; omega
  refine ⟨⟨(i 0).val / 5000, hlt⟩, flush0_7 _, ?_⟩
  rw [mem_blk0_7]
  obtain ⟨x0, x1, w0, w1, b0, s0, s1, s2, o40, o41, o50, o51, o60, o61, o70, o71⟩ := idx0 ⟨(i 0).val / 5000, hlt⟩
  have hv : (⟨(i 0).val / 5000, hlt⟩ : Fin cfg0.N).val = (i 0).val / 5000 := rfl
  intro a
  match a with
  | ⟨0, _⟩ =>
    show win0_7.index ⟨(i 0).val / 5000, hlt⟩ (0 : Fin 2) * 5000 ≤ (i 0).val ∧ (i 0).val < win0_7.index ⟨(i 0).val / 5000, hlt⟩ (0 : Fin 2) * 5000 + 5000
    omega
  | ⟨1, _⟩ =>
    show win0_7.index ⟨(i 0).val / 5000, hlt⟩ (1 : Fin 2) * 96 ≤ (i 1).val ∧ (i 1).val < win0_7.index ⟨(i 0).val / 5000, hlt⟩ (1 : Fin 2) * 96 + 96
    omega

/-- After the launch, relation output 2 holds (entry rows) · (slab 2), whole. -/
theorem rel0_2_final (c : Dev nD) : (dat0 V c).arrAt 7 cfg0.N
    = linear (M := 50000) (K := 96) (N := 96) (V c main_arg0) (slab (K := 96) (N := 96) (V c main_arg4) 2) :=
  (dat0 V c).arrAt_eq_of_cover 7 _ (fun t _ => flushed0_7_eq V c t) (fun i => covered0_7 i)

end Cert.KernelIdeal.Whole

end
-- ==== Proof.RefForms.lean ====
/-
  The reference's dense stages, each as a dense map of LibDense.lean of its operands.

  The reference computes x · W_root + b by one dot_general and a bias broadcast over the rows, x · W_rel[r] by a
  dot_general with rows r … r of the relation weights reshaped to a matrix, and the read-out the same way. Only these
  stages are opened here; every other stage of the reference (the masks, gathers, scatter-adds, counts, quotients, the
  two rectifiers, the pooling) stays a named function of the arguments.
-/
import proofs.«178041_j88648124990728_1_alg».proof.Proof.Gen.ReferenceIdeal.Read
import proofs.«178041_j88648124990728_1_alg».proof.Proof.LibDenseForms

noncomputable section

namespace Cert.ReferenceIdeal.Dense

open Cert.ReferenceIdeal Cert.ReferenceIdeal.Gen Cert.ReferenceIdeal.Read Cert.Rgcn
open Idealize.ShloMosaic Idealize.ShloMosaic.ValueIdx

/-- The host's product of 50000 x 96 features with a 96 x 96 matrix. -/
theorem host_linear96 (x : FVec Ideal S50000x96 .f32) (w : FVec Ideal S96x96 .f32) :
    Host.dotGeneral dot_S50000x96_S96x96_S50000x96_1_0_0_1_n_n none x w = linear (M := 50000) (K := 96) (N := 96) x w := by
  simp only [Host.dotGeneral]
  exact hostProduct_eq dot_S50000x96_S96x96_S50000x96_1_0_0_1_n_n rfl rfl rfl rfl rfl rfl rfl rfl none _ x w

/-- The host's product with the bias broadcast along axis 1 and then down the rows. -/
theorem host_affine96 (x : FVec Ideal S50000x96 .f32) (w : FVec Ideal S96x96 .f32) (b : FVec Ideal S96 .f32) :
    addf (Host.dotGeneral dot_S50000x96_S96x96_S50000x96_1_0_0_1_n_n none x w)
        (broadcastInDim S50000x96 ![0, 1] bcast_S1x96_S50000x96_0_1 (broadcastInDim S1x96 ![1] bcast_S96_S1x96_1 b))
      = affine (M := 50000) (K := 96) (N := 96) x w b := by
  simp only [Host.dotGeneral]
  exact hostAffine_eq dot_S50000x96_S96x96_S50000x96_1_0_0_1_n_n rfl rfl rfl rfl rfl rfl rfl rfl none _ x w b bcast_S96_S1x96_1 bcast_S1x96_S50000x96_0_1

/-- The read-out's product and bias, on 512 pooled rows and 16 classes. -/
theorem host_affine16 (x : FVec Ideal S512x96 .f32) (w : FVec Ideal S96x16 .f32) (b : FVec Ideal S16 .f32) :
    addf (Host.dotGeneral dot_S512x96_S96x16_S512x16_1_0_0_1_n_n none x w)
        (broadcastInDim S512x16 ![0, 1] bcast_S1x16_S512x16_0_1 (broadcastInDim S1x16 ![1] bcast_S16_S1x16_1 b))
      = affine (M := 512) (K := 96) (N := 16) x w b := by
  simp only [Host.dotGeneral]
  exact hostAffine_eq dot_S512x96_S96x16_S512x16_1_0_0_1_n_n rfl rfl rfl rfl rfl rfl rfl rfl none _ x w b bcast_S16_S1x16_1 bcast_S1x16_S512x16_0_1

/-! ## Layer 1 -/

/-- The root term of layer 1 is x · W_root1 + b1. -/
theorem v7_eq (x0 : (⟨S50000x96, .f32⟩ : BufTy).Contents (Elt Ideal)) (x5 : (⟨S96x96, .f32⟩ : BufTy).Contents (Elt Ideal)) (x6 : (⟨S96, .f32⟩ : BufTy).Contents (Elt Ideal)) :
    val_main_v7 (F := Ideal) x0 x5 x6 = affine (M := 50000) (K := 96) (N := 96) x0 x5 x6 := by
  unfold val_main_v7 val_main_v6 val_main_v5 val_main_v4
  exact host_affine96 x0 x5 x6

/-- Rows 0 … 0 of the relation weights, reshaped to a matrix, are slab 0. -/
theorem v11_eq (x4 : (⟨S3x96x96, .f32⟩ : BufTy).Contents (Elt Ideal)) : val_main_v11 (F := Ideal) x4 = slab (K := 96) (N := 96) x4 0 := by
  unfold val_main_v11 val_main_v10
  exact sliceSlab_eq (K := 96) (N := 96) x4 0 slices_S3x96x96_S1x96x96_0_0_0 shapeCasts_S1x96x96_S96x96
/-- Rows 1 … 1 of the relation weights, reshaped to a matrix, are slab 1. -/
theorem v38_eq (x4 : (⟨S3x96x96, .f32⟩ : BufTy).Contents (Elt Ideal)) : val_main_v38 (F := Ideal) x4 = slab (K := 96) (N := 96) x4 1 := by
  unfold val_main_v38 val_main_v37
  exact sliceSlab_eq (K := 96) (N := 96) x4 1 slices_S3x96x96_S1x96x96_1_0_0 shapeCasts_S1x96x96_S96x96
/-- Rows 2 … 2 of the relation weights, reshaped to a matrix, are slab 2. -/
theorem v65_eq (x4 : (⟨S3x96x96, .f32⟩ : BufTy).Contents (Elt Ideal)) : val_main_v65 (F := Ideal) x4 = slab (K := 96) (N := 96) x4 2 := by
  unfold val_main_v65 val_main_v64
  exact sliceSlab_eq (K := 96) (N := 96) x4 2 slices_S3x96x96_S1x96x96_2_0_0 shapeCasts_S1x96x96_S96x96

/-- The relation-0 projection is (features) · (slab 0). -/
theorem v12_eq (x0 : (⟨S50000x96, .f32⟩ : BufTy).Contents (Elt Ideal)) (x4 : (⟨S3x96x96, .f32⟩ : BufTy).Contents (Elt Ideal)) :
    val_main_v12 (F := Ideal) x0 x4 = linear (M := 50000) (K := 96) (N := 96) (x0) (slab (K := 96) (N := 96) x4 0) := by
  unfold val_main_v12
  rw [v11_eq]
  exact host_linear96 _ _
/-- The relation-1 projection is (features) · (slab 1). -/
theorem v39_eq (x0 : (⟨S50000x96, .f32⟩ : BufTy).Contents (Elt Ideal)) (x4 : (⟨S3x96x96, .f32⟩ : BufTy).Contents (Elt Ideal)) :
    val_main_v39 (F := Ideal) x0 x4 = linear (M := 50000) (K := 96) (N := 96) (x0) (slab (K := 96) (N := 96) x4 1) := by
  unfold val_main_v39
  rw [v38_eq]
  exact host_linear96 _ _
/-- The relation-2 projection is (features) · (slab 2). -/
theorem v66_eq (x0 : (⟨S50000x96, .f32⟩ : BufTy).Contents (Elt Ideal)) (x4 : (⟨S3x96x96, .f32⟩ : BufTy).Contents (Elt Ideal)) :
    val_main_v66 (F := Ideal) x0 x4 = linear (M := 50000) (K := 96) (N := 96) (x0) (slab (K := 96) (N := 96) x4 2) := by
  unfold val_main_v66
  rw [v65_eq]
  exact host_linear96 _ _

/-! ## Layer 2, on the first layer's rectified output -/

/-- The root term of layer 2 is h · W_root2 + b2, h the first layer's output. -/
theorem v93_eq (x0 : (⟨S50000x96, .f32⟩ : BufTy).Contents (Elt Ideal)) (x1 : (⟨S2x800000, .i32⟩ : BufTy).Contents (Elt Ideal)) (x2 : (⟨S800000, .i32⟩ : BufTy).Contents (Elt Ideal)) (x4 : (⟨S3x96x96, .f32⟩ : BufTy).Contents (Elt Ideal)) (x5 : (⟨S96x96, .f32⟩ : BufTy).Contents (Elt Ideal)) (x6 : (⟨S96, .f32⟩ : BufTy).Contents (Elt Ideal)) (x8 : (⟨S96x96, .f32⟩ : BufTy).Contents (Elt Ideal)) (x9 : (⟨S96, .f32⟩ : BufTy).Contents (Elt Ideal)) :
    val_main_v93 (F := Ideal) x0 x1 x2 x4 x5 x6 x8 x9 = affine (M := 50000) (K := 96) (N := 96) (val_main_v89 (F := Ideal) x0 x1 x2 x4 x5 x6) x8 x9 := by
  unfold val_main_v93 val_main_v92 val_main_v91 val_main_v90
  exact host_affine96 _ x8 x9

/-- Rows 0 … 0 of the relation weights, reshaped to a matrix, are slab 0. -/
theorem v97_eq (x7 : (⟨S3x96x96, .f32⟩ : BufTy).Contents (Elt Ideal)) : val_main_v97 (F := Ideal) x7 = slab (K := 96) (N := 96) x7 0 := by
  unfold val_main_v97 val_main_v96
  exact sliceSlab_eq (K := 96) (N := 96) x7 0 slices_S3x96x96_S1x96x96_0_0_0 shapeCasts_S1x96x96_S96x96
/-- Rows 1 … 1 of the relation weights, reshaped to a matrix, are slab 1. -/
theorem v124_eq (x7 : (⟨S3x96x96, .f32⟩ : BufTy).Contents (Elt Ideal)) : val_main_v124 (F := Ideal) x7 = slab (K := 96) (N := 96) x7 1 := by
  unfold val_main_v124 val_main_v123
  exact sliceSlab_eq (K := 96) (N := 96) x7 1 slices_S3x96x96_S1x96x96_1_0_0 shapeCasts_S1x96x96_S96x96
/-- Rows 2 … 2 of the relation weights, reshaped to a matrix, are slab 2. -/
theorem v151_eq (x7 : (⟨S3x96x96, .f32⟩ : BufTy).Contents (Elt Ideal)) : val_main_v151 (F := Ideal) x7 = slab (K := 96) (N := 96) x7 2 := by
  unfold val_main_v151 val_main_v150
  exact sliceSlab_eq (K := 96) (N := 96) x7 2 slices_S3x96x96_S1x96x96_2_0_0 shapeCasts_S1x96x96_S96x96

/-- The relation-0 projection is (features) · (slab 0). -/
theorem v98_eq (x0 : (⟨S50000x96, .f32⟩ : BufTy).Contents (Elt Ideal)) (x1 : (⟨S2x800000, .i32⟩ : BufTy).Contents (Elt Ideal)) (x2 : (⟨S800000, .i32⟩ : BufTy).Contents (Elt Ideal)) (x4 : (⟨S3x96x96, .f32⟩ : BufTy).Contents (Elt Ideal)) (x5 : (⟨S96x96, .f32⟩ : BufTy).Contents (Elt Ideal)) (x6 : (⟨S96, .f32⟩ : BufTy).Contents (Elt Ideal)) (x7 : (⟨S3x96x96, .f32⟩ : BufTy).Contents (Elt Ideal)) :
    val_main_v98 (F := Ideal) x0 x1 x2 x4 x5 x6 x7 = linear (M := 50000) (K := 96) (N := 96) (val_main_v89 (F := Ideal) x0 x1 x2 x4 x5 x6) (slab (K := 96) (N := 96) x7 0) := by
  unfold val_main_v98
  rw [v97_eq]
  exact host_linear96 _ _
/-- The relation-1 projection is (features) · (slab 1). -/
theorem v125_eq (x0 : (⟨S50000x96, .f32⟩ : BufTy).Contents (Elt Ideal)) (x1 : (⟨S2x800000, .i32⟩ : BufTy).Contents (Elt Ideal)) (x2 : (⟨S800000, .i32⟩ : BufTy).Contents (Elt Ideal)) (x4 : (⟨S3x96x96, .f32⟩ : BufTy).Contents (Elt Ideal)) (x5 : (⟨S96x96, .f32⟩ : BufTy).Contents (Elt Ideal)) (x6 : (⟨S96, .f32⟩ : BufTy).Contents (Elt Ideal)) (x7 : (⟨S3x96x96, .f32⟩ : BufTy).Contents (Elt Ideal)) :
    val_main_v125 (F := Ideal) x0 x1 x2 x4 x5 x6 x7 = linear (M := 50000) (K := 96) (N := 96) (val_main_v89 (F := Ideal) x0 x1 x2 x4 x5 x6) (slab (K := 96) (N := 96) x7 1) := by
  unfold val_main_v125
  rw [v124_eq]
  exact host_linear96 _ _
/-- The relation-2 projection is (features) · (slab 2). -/
theorem v152_eq (x0 : (⟨S50000x96, .f32⟩ : BufTy).Contents (Elt Ideal)) (x1 : (⟨S2x800000, .i32⟩ : BufTy).Contents (Elt Ideal)) (x2 : (⟨S800000, .i32⟩ : BufTy).Contents (Elt Ideal)) (x4 : (⟨S3x96x96, .f32⟩ : BufTy).Contents (Elt Ideal)) (x5 : (⟨S96x96, .f32⟩ : BufTy).Contents (Elt Ideal)) (x6 : (⟨S96, .f32⟩ : BufTy).Contents (Elt Ideal)) (x7 : (⟨S3x96x96, .f32⟩ : BufTy).Contents (Elt Ideal)) :
    val_main_v152 (F := Ideal) x0 x1 x2 x4 x5 x6 x7 = linear (M := 50000) (K := 96) (N := 96) (val_main_v89 (F := Ideal) x0 x1 x2 x4 x5 x6) (slab (K := 96) (N := 96) x7 2) := by
  unfold val_main_v152
  rw [v151_eq]
  exact host_linear96 _ _

/-! ## The read-out -/

/-- The result is pooled · W_lin + b_lin, pooled the mean-pooled second-layer output. -/
theorem v191_eq (x0 : (⟨S50000x96, .f32⟩ : BufTy).Contents (Elt Ideal)) (x1 : (⟨S2x800000, .i32⟩ : BufTy).Contents (Elt Ideal)) (x2 : (⟨S800000, .i32⟩ : BufTy).Contents (Elt Ideal)) (x3 : (⟨S50000, .i32⟩ : BufTy).Contents (Elt Ideal)) (x4 : (⟨S3x96x96, .f32⟩ : BufTy).Contents (Elt Ideal)) (x5 : (⟨S96x96, .f32⟩ : BufTy).Contents (Elt Ideal)) (x6 : (⟨S96, .f32⟩ : BufTy).Contents (Elt Ideal)) (x7 : (⟨S3x96x96, .f32⟩ : BufTy).Contents (Elt Ideal)) (x8 : (⟨S96x96, .f32⟩ : BufTy).Contents (Elt Ideal)) (x9 : (⟨S96, .f32⟩ : BufTy).Contents (Elt Ideal)) (x10 : (⟨S96x16, .f32⟩ : BufTy).Contents (Elt Ideal)) (x11 : (⟨S16, .f32⟩ : BufTy).Contents (Elt Ideal)) :
    val_main_v191 (F := Ideal) x0 x1 x2 x3 x4 x5 x6 x7 x8 x9 x10 x11 = affine (M := 512) (K := 96) (N := 16) (val_main_v187 (F := Ideal) x0 x1 x2 x3 x4 x5 x6 x7 x8 x9) x10 x11 := by
  unfold val_main_v191 val_main_v190 val_main_v189 val_main_v188
  exact host_affine16 _ x10 x11

end Cert.ReferenceIdeal.Dense

end
-- ==== Proof.KEntry.lean ====
/-
  The buffers as the first launch finds them, and what the first launch leaves.

  Before the first launch the host only slices the edge table into its source row and its destination row; it writes
  no argument. So at the first launch every argument array is as launched, and the two rows are the reference's own
  source and destination stages of the edge table. After the launch its four outputs hold x · W_root1 + b1 and
  x · W_rel1[r], which are the reference's four layer-1 projections; every buffer the launch does not own is unchanged.
-/
import proofs.«178041_j88648124990728_1_alg».proof.Proof.Gen.KernelIdeal.Frame
import proofs.«178041_j88648124990728_1_alg».proof.Proof.KReg0
import proofs.«178041_j88648124990728_1_alg».proof.Proof.RefForms

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Argument 0 at the first launch is as launched. -/
theorem V1_arg0 : V1 m ρ c main_arg0 = m ((c : Thread nD τ).loc main_arg0) := by
  show StableHlo.after hostOps0 (W0 m ρ c) (Proc.devRef .tc main_arg0) = _
  after_results_simp <;> rfl

/-- Argument 1 at the first launch is as launched. -/
theorem V1_arg1 : V1 m ρ c main_arg1 = m ((c : Thread nD τ).loc main_arg1) := by
  show StableHlo.after hostOps0 (W0 m ρ c) (Proc.devRef .tc main_arg1) = _
  after_results_simp <;> rfl

/-- Argument 2 at the first launch is as launched. -/
theorem V1_arg2 : V1 m ρ c main_arg2 = m ((c : Thread nD τ).loc main_arg2) := by
  show StableHlo.after hostOps0 (W0 m ρ c) (Proc.devRef .tc main_arg2) = _
  after_results_simp <;> rfl

/-- Argument 3 at the first launch is as launched. -/
theorem V1_arg3 : V1 m ρ c main_arg3 = m ((c : Thread nD τ).loc main_arg3) := by
  show StableHlo.after hostOps0 (W0 m ρ c) (Proc.devRef .tc main_arg3) = _
  after_results_simp <;> rfl

/-- Argument 4 at the first launch is as launched. -/
theorem V1_arg4 : V1 m ρ c main_arg4 = m ((c : Thread nD τ).loc main_arg4) := by
  show StableHlo.after hostOps0 (W0 m ρ c) (Proc.devRef .tc main_arg4) = _
  after_results_simp <;> rfl

/-- Argument 5 at the first launch is as launched. -/
theorem V1_arg5 : V1 m ρ c main_arg5 = m ((c : Thread nD τ).loc main_arg5) := by
  show StableHlo.after hostOps0 (W0 m ρ c) (Proc.devRef .tc main_arg5) = _
  after_results_simp <;> rfl

/-- Argument 6 at the first launch is as launched. -/
theorem V1_arg6 : V1 m ρ c main_arg6 = m ((c : Thread nD τ).loc main_arg6) := by
  show StableHlo.after hostOps0 (W0 m ρ c) (Proc.devRef .tc main_arg6) = _
  after_results_simp <;> rfl

/-- Argument 7 at the first launch is as launched. -/
theorem V1_arg7 : V1 m ρ c main_arg7 = m ((c : Thread nD τ).loc main_arg7) := by
  show StableHlo.after hostOps0 (W0 m ρ c) (Proc.devRef .tc main_arg7) = _
  after_results_simp <;> rfl

/-- Argument 8 at the first launch is as launched. -/
theorem V1_arg8 : V1 m ρ c main_arg8 = m ((c : Thread nD τ).loc main_arg8) := by
  show StableHlo.after hostOps0 (W0 m ρ c) (Proc.devRef .tc main_arg8) = _
  after_results_simp <;> rfl

/-- Argument 9 at the first launch is as launched. -/
theorem V1_arg9 : V1 m ρ c main_arg9 = m ((c : Thread nD τ).loc main_arg9) := by
  show StableHlo.after hostOps0 (W0 m ρ c) (Proc.devRef .tc main_arg9) = _
  after_results_simp <;> rfl

/-- Argument 10 at the first launch is as launched. -/
theorem V1_arg10 : V1 m ρ c main_arg10 = m ((c : Thread nD τ).loc main_arg10) := by
  show StableHlo.after hostOps0 (W0 m ρ c) (Proc.devRef .tc main_arg10) = _
  after_results_simp <;> rfl

/-- Argument 11 at the first launch is as launched. -/
theorem V1_arg11 : V1 m ρ c main_arg11 = m ((c : Thread nD τ).loc main_arg11) := by
  show StableHlo.after hostOps0 (W0 m ρ c) (Proc.devRef .tc main_arg11) = _
  after_results_simp <;> rfl

/-- The source row of the edge table at the first launch is the reference's. -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

/-- The destination row of the edge table at the first launch is the reference's. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

/-! ## After the first launch -/

theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)

theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)

theorem W2_arg2 : W2 m ρ c (Proc.devRef .tc main_arg2) = m ((c : Thread nD τ).loc main_arg2) :=
  (W2_of_ne m ρ c main_arg2 (by decide)).trans (V1_arg2 m ρ c)

theorem W2_arg3 : W2 m ρ c (Proc.devRef .tc main_arg3) = m ((c : Thread nD τ).loc main_arg3) :=
  (W2_of_ne m ρ c main_arg3 (by decide)).trans (V1_arg3 m ρ c)

theorem W2_arg7 : W2 m ρ c (Proc.devRef .tc main_arg7) = m ((c : Thread nD τ).loc main_arg7) :=
  (W2_of_ne m ρ c main_arg7 (by decide)).trans (V1_arg7 m ρ c)

theorem W2_arg8 : W2 m ρ c (Proc.devRef .tc main_arg8) = m ((c : Thread nD τ).loc main_arg8) :=
  (W2_of_ne m ρ c main_arg8 (by decide)).trans (V1_arg8 m ρ c)

theorem W2_arg9 : W2 m ρ c (Proc.devRef .tc main_arg9) = m ((c : Thread nD τ).loc main_arg9) :=
  (W2_of_ne m ρ c main_arg9 (by decide)).trans (V1_arg9 m ρ c)

theorem W2_arg10 : W2 m ρ c (Proc.devRef .tc main_arg10) = m ((c : Thread nD τ).loc main_arg10) :=
  (W2_of_ne m ρ c main_arg10 (by decide)).trans (V1_arg10 m ρ c)

theorem W2_arg11 : W2 m ρ c (Proc.devRef .tc main_arg11) = m ((c : Thread nD τ).loc main_arg11) :=
  (W2_of_ne m ρ c main_arg11 (by decide)).trans (V1_arg11 m ρ c)

/-- The first launch's root output is the reference's layer-1 root term. -/
theorem W2_v4_0 : W2 m ρ c (Proc.devRef .tc main_v4_0) = Cert.ReferenceIdeal.Read.val_main_v7 (F := Ideal) (m ((c : Thread nD τ).loc main_arg0)) (m ((c : Thread nD τ).loc main_arg5)) (m ((c : Thread nD τ).loc main_arg6)) :=
  (W2_arr m ρ c 4).trans ((root0_final (V1 m ρ) c).trans (by
    rw [V1_arg0 m ρ c, V1_arg5 m ρ c, V1_arg6 m ρ c]
    exact (Cert.ReferenceIdeal.Dense.v7_eq _ _ _).symm))

/-- The first launch's relation-0 output is the reference's layer-1 relation-0 projection. -/
theorem W2_v4_1 : W2 m ρ c (Proc.devRef .tc main_v4_1) = Cert.ReferenceIdeal.Read.val_main_v12 (F := Ideal) (m ((c : Thread nD τ).loc main_arg0)) (m ((c : Thread nD τ).loc main_arg4)) :=
  (W2_arr m ρ c 5).trans ((rel0_0_final (V1 m ρ) c).trans (by
    rw [V1_arg0 m ρ c, V1_arg4 m ρ c]
    exact (Cert.ReferenceIdeal.Dense.v12_eq _ _).symm))

/-- The first launch's relation-1 output is the reference's layer-1 relation-1 projection. -/
theorem W2_v4_2 : W2 m ρ c (Proc.devRef .tc main_v4_2) = Cert.ReferenceIdeal.Read.val_main_v39 (F := Ideal) (m ((c : Thread nD τ).loc main_arg0)) (m ((c : Thread nD τ).loc main_arg4)) :=
  (W2_arr m ρ c 6).trans ((rel0_1_final (V1 m ρ) c).trans (by
    rw [V1_arg0 m ρ c, V1_arg4 m ρ c]
    exact (Cert.ReferenceIdeal.Dense.v39_eq _ _).symm))

/-- The first launch's relation-2 output is the reference's layer-1 relation-2 projection. -/
theorem W2_v4_3 : W2 m ρ c (Proc.devRef .tc main_v4_3) = Cert.ReferenceIdeal.Read.val_main_v66 (F := Ideal) (m ((c : Thread nD τ).loc main_arg0)) (m ((c : Thread nD τ).loc main_arg4)) :=
  (W2_arr m ρ c 7).trans ((rel0_2_final (V1 m ρ) c).trans (by
    rw [V1_arg0 m ρ c, V1_arg4 m ρ c]
    exact (Cert.ReferenceIdeal.Dense.v66_eq _ _).symm))

end Cert.KernelIdeal.Whole

end
-- ==== Proof.KWalk1a.lean ====
/-
  Buffers the first layer's host stretch does not write (part a): the edge table's two rows and the arguments
  read later are, at the second launch, what they were after the first launch.
-/
import proofs.«178041_j88648124990728_1_alg».proof.Proof.Gen.KernelIdeal.Frame
import proofs.«178041_j88648124990728_1_alg».proof.Proof.KEntry

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem W10_v1 : W10 m ρ c (Proc.devRef .tc main_v1) = Cert.ReferenceIdeal.Read.val_main_v1 (F := Ideal) (m ((c : Thread nD τ).loc main_arg1)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_v1) = _
  after_results_simp
  exact W2_v1 m ρ c

theorem W10_v3 : W10 m ρ c (Proc.devRef .tc main_v3) = Cert.ReferenceIdeal.Read.val_main_v3 (F := Ideal) (m ((c : Thread nD τ).loc main_arg1)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_v3) = _
  after_results_simp
  exact W2_v3 m ρ c

theorem W10_arg2 : W10 m ρ c (Proc.devRef .tc main_arg2) = m ((c : Thread nD τ).loc main_arg2) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg2) = _
  after_results_simp
  exact W2_arg2 m ρ c

end Cert.KernelIdeal.Whole

end
-- ==== Proof.KWalk1b.lean ====
/-
  Buffers the first layer's host stretch does not write (part b): the edge table's two rows and the arguments
  read later are, at the second launch, what they were after the first launch.
-/
import proofs.«178041_j88648124990728_1_alg».proof.Proof.Gen.KernelIdeal.Frame
import proofs.«178041_j88648124990728_1_alg».proof.Proof.KEntry

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem W10_arg3 : W10 m ρ c (Proc.devRef .tc main_arg3) = m ((c : Thread nD τ).loc main_arg3) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg3) = _
  after_results_simp
  exact W2_arg3 m ρ c

theorem W10_arg7 : W10 m ρ c (Proc.devRef .tc main_arg7) = m ((c : Thread nD τ).loc main_arg7) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg7) = _
  after_results_simp
  exact W2_arg7 m ρ c

theorem W10_arg8 : W10 m ρ c (Proc.devRef .tc main_arg8) = m ((c : Thread nD τ).loc main_arg8) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg8) = _
  after_results_simp
  exact W2_arg8 m ρ c

theorem W10_arg9 : W10 m ρ c (Proc.devRef .tc main_arg9) = m ((c : Thread nD τ).loc main_arg9) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg9) = _
  after_results_simp
  exact W2_arg9 m ρ c

end Cert.KernelIdeal.Whole

end
-- ==== Proof.KWalk1c.lean ====
/-
  Buffers the first layer's host stretch does not write (part c): the edge table's two rows and the arguments
  read later are, at the second launch, what they were after the first launch.
-/
import proofs.«178041_j88648124990728_1_alg».proof.Proof.Gen.KernelIdeal.Frame
import proofs.«178041_j88648124990728_1_alg».proof.Proof.KEntry

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem W10_arg10 : W10 m ρ c (Proc.devRef .tc main_arg10) = m ((c : Thread nD τ).loc main_arg10) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg10) = _
  after_results_simp
  exact W2_arg10 m ρ c

theorem W10_arg11 : W10 m ρ c (Proc.devRef .tc main_arg11) = m ((c : Thread nD τ).loc main_arg11) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_arg11) = _
  after_results_simp
  exact W2_arg11 m ρ c

end Cert.KernelIdeal.Whole

end
-- ==== Proof.KChain1.lean ====
/-
  The first layer's host stretch: from the first launch's four outputs to the second launch's input.

  Between the two launches the host masks the edges by relation, gathers each relation's projected rows at the edges'
  sources, scatter-adds them at the destinations, divides by the per-destination counts (at least one), adds the three
  quotients to the root term and rectifies. The reference applies the same operations, in the same order, to its own
  four projections; those are the first launch's outputs, so what the second launch reads is the reference's rectified
  first-layer output.
-/
import proofs.«178041_j88648124990728_1_alg».proof.Proof.Gen.KernelIdeal.Frame
import proofs.«178041_j88648124990728_1_alg».proof.Proof.KEntry

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 100000000 in
/-- The second launch's feature input is the reference's rectified first-layer output. -/
theorem V10_v77 : V10 m ρ c main_v77 = Cert.ReferenceIdeal.Read.val_main_v89 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c)))))))) (Proc.devRef .tc main_v77) = _
  after_results_simp
  rw [W2_v4_0 m ρ c, W2_v4_1 m ρ c, W2_v4_2 m ρ c, W2_v4_3 m ρ c, W2_v1 m ρ c, W2_v3 m ρ c, W2_arg2 m ρ c]
  rfl

end Cert.KernelIdeal.Whole

end
-- ==== Proof.KReg1.lean ====
/-
  Launch 1 of the projection kernel, from any contents V of the buffers at its entry: what its four output arrays hold
  when it returns.

  The grid has ten points; point t works on rows 5000·t … 5000·t + 4999 of the node features and sees the whole root
  weights, bias and relation weights. It writes back, to the same rows of each output, the affine map (root output) or
  the product with one slab of the relation weights (relation outputs) of its block. A row of a product depends only on
  the same row of the left operand, so block t of the output is block t of the whole-array map; the ten blocks tile
  the 50000 rows, so each output array ends holding the whole-array map of the entry contents.
-/
import proofs.«178041_j88648124990728_1_alg».proof.Proof.Gen.KernelIdeal.Frame
import proofs.«178041_j88648124990728_1_alg».proof.Proof.KPay

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the ten grid points: the feature block and the four output blocks move with the
    point along the rows; the weights, the bias and the relation weights stay at block 0. -/
theorem idx1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 3) = 0
    ∧ win1_3.index t (1 : Fin 3) = 0
    ∧ win1_3.index t (2 : Fin 3) = 0
    ∧ win1_4.index t (0 : Fin 2) = t.val
    ∧ win1_4.index t (1 : Fin 2) = 0
    ∧ win1_5.index t (0 : Fin 2) = t.val
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

/-- The body's load of the 1 x 96 x 96 rectangle at offset (0, 0, 0), read as a matrix, is slab 0. -/
theorem slab1_load0 (x3 : Vec Ideal S3x96x96 .f32) :
    shapeCast S96x96 (View.ld x3 r1_3) shapeCasts_S1x96x96_S96x96 = slab (K := 96) (N := 96) x3 0 :=
  slabLoad_eq (K := 96) (N := 96) x3 0 inb_S3x96x96_S1x96x96_0_0_0 shapeCasts_S1x96x96_S96x96

/-- The body's load of the 1 x 96 x 96 rectangle at offset (1, 0, 0), read as a matrix, is slab 1. -/
theorem slab1_load1 (x3 : Vec Ideal S3x96x96 .f32) :
    shapeCast S96x96 (View.ld x3 r1_4) shapeCasts_S1x96x96_S96x96 = slab (K := 96) (N := 96) x3 1 :=
  slabLoad_eq (K := 96) (N := 96) x3 1 inb_S3x96x96_S1x96x96_1_0_0 shapeCasts_S1x96x96_S96x96

/-- The body's load of the 1 x 96 x 96 rectangle at offset (2, 0, 0), read as a matrix, is slab 2. -/
theorem slab1_load2 (x3 : Vec Ideal S3x96x96 .f32) :
    shapeCast S96x96 (View.ld x3 r1_5) shapeCasts_S1x96x96_S96x96 = slab (K := 96) (N := 96) x3 2 :=
  slabLoad_eq (K := 96) (N := 96) x3 2 inb_S3x96x96_S1x96x96_2_0_0 shapeCasts_S1x96x96_S96x96

/-- What point t writes back to the root output is block t of (entry rows) · W_root + b. -/
theorem flushed1_4_eq (c : Dev nD) (t : Fin cfg1.N) :
    (dat1 V c).flushed 4 t = ((cfg1.win 4).blk t).view.read (Elt Ideal)
      (affine (M := 50000) (K := 96) (N := 96) (V c main_v77) (V c main_arg8) (V c main_arg9)) := by
  show (cfg1.win 4).cut (grid1.coords t) ((dat1 V c).after 4 t) = _
  rw [after1_4]
  unfold out1_4
  rw [View.canon_unit_zero zero2]
  simp only [View.ld_unit_zero (S := S5000x96) zero2, View.ld_unit_zero (S := S96x96) zero2, View.ld_unit_zero (S := S96) zero1]
  rw [root1_pay]
  obtain ⟨x0, x1, w0, w1, b0, s0, s1, s2, o40, o41, o50, o51, o60, o61, o70, o71⟩ := idx1 t
  funext j
  show affine (M := 5000) (K := 96) (N := 96) (iblk1 V c 0 t) (iblk1 V c 1 t) (iblk1 V c 2 t) j
      = affine (M := 50000) (K := 96) (N := 96) (V c main_v77) (V c main_arg8) (V c main_arg9) (((cfg1.win 4).blk t).view.emb j)
  refine affine_block _ _ _ _ _ _ j _ (fun k => ?_) (fun k => ?_) ?_
  ·
    have h : ((cfg1.win 0).blk t).view.emb (ix2 (j 0) k) = ix2 ((((cfg1.win 4).blk t).view.emb j) 0) k := by
      funext a; apply Fin.ext
      match a with
      | ⟨0, _⟩ => show win1_0.index t (0 : Fin 2) * 5000 + 1 * (j 0).val = win1_4.index t (0 : Fin 2) * 5000 + 1 * (j 0).val; omega
      | ⟨1, _⟩ => show win1_0.index t (1 : Fin 2) * 96 + 1 * k.val = k.val; omega
    exact congrArg (V c main_v77) h
  · have h : ((cfg1.win 1).blk t).view.emb (ix2 k (j 1)) = ix2 k ((((cfg1.win 4).blk t).view.emb j) 1) := by
      funext a; apply Fin.ext
      match a with
      | ⟨0, _⟩ => show win1_1.index t (0 : Fin 2) * 96 + 1 * k.val = k.val; omega
      | ⟨1, _⟩ => show win1_1.index t (1 : Fin 2) * 96 + 1 * (j 1).val = win1_4.index t (1 : Fin 2) * 96 + 1 * (j 1).val; omega
    exact congrArg (V c main_arg8) h
  · have h : ((cfg1.win 2).blk t).view.emb (ix1 (j 1)) = ix1 ((((cfg1.win 4).blk t).view.emb j) 1) := by
      funext a; apply Fin.ext
      match a with
      | ⟨0, _⟩ => show win1_2.index t (0 : Fin 1) * 96 + 1 * (j 1).val = win1_4.index t (1 : Fin 2) * 96 + 1 * (j 1).val; omega
    exact congrArg (V c main_arg9) h

/-- An index of output array 0 is in point t's block iff each coordinate is in the block's range on its axis. -/
theorem mem_blk1_4 (t : Fin cfg1.N) (i : S50000x96.Idx) :
    i ∈ ((cfg1.win 4).blk t).view.set ↔ ∀ a : Fin 2, win1_4.index t a * S5000x96.size a ≤ (i a).val ∧ (i a).val < win1_4.index t a * S5000x96.size a + S5000x96.size a := by
  show i ∈ ((View.whole main_v78_0).slice (win1_4.rect t)).set ↔ _
  rw [View.set_slice_whole, Rect.mem_set_unit]
  exact Iff.rfl

/-- Row r of the array lies in the block of point r / 5000: the ten blocks of 5000 rows tile the 50000 rows. -/
theorem covered1_4 (i : S50000x96.Idx) :
    ∃ t : Fin cfg1.N, (cfg1.win 4).flush t = true ∧ i ∈ ((cfg1.win 4).blk t).view.set := by
  have hN : cfg1.N = 10 := N_1
  have hi0 : (i 0).val < 50000 := (i 0).isLt
  have hi1 : (i 1).val < 96 := (i 1).isLt
  have hlt : (i 0).val / 5000 < cfg1.N := by rw [hN]; omega
  refine ⟨⟨(i 0).val / 5000, hlt⟩, flush1_4 _, ?_⟩
  rw [mem_blk1_4]
  obtain ⟨x0, x1, w0, w1, b0, s0, s1, s2, o40, o41, o50, o51, o60, o61, o70, o71⟩ := idx1 ⟨(i 0).val / 5000, hlt⟩
  have hv : (⟨(i 0).val / 5000, hlt⟩ : Fin cfg1.N).val = (i 0).val / 5000 := rfl
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    omega
  | ⟨1, _⟩ =>
    show win1_4.index ⟨(i 0).val / 5000, hlt⟩ (1 : Fin 2) * 96 ≤ (i 1).val ∧ (i 1).val < win1_4.index ⟨(i 0).val / 5000, hlt⟩ (1 : Fin 2) * 96 + 96
    omega

/-- After the launch, the root output holds (entry rows) · W_root + b, whole. -/
theorem root1_final (c : Dev nD) : (dat1 V c).arrAt 4 cfg1.N
    = affine (M := 50000) (K := 96) (N := 96) (V c main_v77) (V c main_arg8) (V c main_arg9) :=
  (dat1 V c).arrAt_eq_of_cover 4 _ (fun t _ => flushed1_4_eq V c t) (fun i => covered1_4 i)

/-- What point t writes back to relation output 0 is block t of (entry rows) · (slab 0 of the relation weights). -/
theorem flushed1_5_eq (c : Dev nD) (t : Fin cfg1.N) :
    (dat1 V c).flushed 5 t = ((cfg1.win 5).blk t).view.read (Elt Ideal)
      (linear (M := 50000) (K := 96) (N := 96) (V c main_v77) (slab (K := 96) (N := 96) (V c main_arg7) 0)) := by
  show (cfg1.win 5).cut (grid1.coords t) ((dat1 V c).after 5 t) = _
  rw [after1_5]
  unfold out1_5
  rw [View.canon_unit_zero zero2]
  simp only [View.ld_unit_zero (S := S5000x96) zero2]
  rw [rel1_pay3, slab1_load0]
  obtain ⟨x0, x1, w0, w1, b0, s0, s1, s2, o40, o41, o50, o51, o60, o61, o70, o71⟩ := idx1 t
  funext j
  show linear (M := 5000) (K := 96) (N := 96) (iblk1 V c 0 t) (slab (K := 96) (N := 96) (iblk1 V c 3 t) 0) j
      = linear (M := 50000) (K := 96) (N := 96) (V c main_v77) (slab (K := 96) (N := 96) (V c main_arg7) 0) (((cfg1.win 5).blk t).view.emb j)
  refine linear_slab_block _ _ _ _ 0 j _ (fun k => ?_) (fun k => ?_)
  ·
    have h : ((cfg1.win 0).blk t).view.emb (ix2 (j 0) k) = ix2 ((((cfg1.win 5).blk t).view.emb j) 0) k := by
      funext a; apply Fin.ext
      match a with
      | ⟨0, _⟩ => show win1_0.index t (0 : Fin 2) * 5000 + 1 * (j 0).val = win1_5.index t (0 : Fin 2) * 5000 + 1 * (j 0).val; omega
      | ⟨1, _⟩ => show win1_0.index t (1 : Fin 2) * 96 + 1 * k.val = k.val; omega
    exact congrArg (V c main_v77) h
  · have h : ((cfg1.win 3).blk t).view.emb (ix3 (0 : Fin 3) k (j 1)) = ix3 (0 : Fin 3) k ((((cfg1.win 5).blk t).view.emb j) 1) := by
      funext a; apply Fin.ext
      match a with
      | ⟨0, _⟩ => show win1_3.index t (0 : Fin 3) * 3 + 1 * 0 = 0; omega
      | ⟨1, _⟩ => show win1_3.index t (1 : Fin 3) * 96 + 1 * k.val = k.val; omega
      | ⟨2, _⟩ => show win1_3.index t (2 : Fin 3) * 96 + 1 * (j 1).val = win1_5.index t (1 : Fin 2) * 96 + 1 * (j 1).val; omega
    exact congrArg (V c main_arg7) h

/-- An index of output array 1 is in point t's block iff each coordinate is in the block's range on its axis. -/
theorem mem_blk1_5 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v78_1).slice (win1_5.rect t)).set ↔ _
  rw [View.set_slice_whole, Rect.mem_set_unit]
  exact Iff.rfl

/-- Row r of the array lies in the block of point r / 5000: the ten blocks of 5000 rows tile the 50000 rows. -/
theorem covered1_5 (i : S50000x96.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 96 := (i 1).isLt
  have hlt : (i 0).val / 5000 < cfg1.N := by rw [hN]; omega
  refine ⟨⟨(i 0).val / 5000, hlt⟩, flush1_5 _, ?_⟩
  rw [mem_blk1_5]
  obtain ⟨x0, x1, w0, w1, b0, s0, s1, s2, o40, o41, o50, o51, o60, o61, o70, o71⟩ := idx1 ⟨(i 0).val / 5000, hlt⟩
  have hv : (⟨(i 0).val / 5000, hlt⟩ : Fin cfg1.N).val = (i 0).val / 5000 := rfl
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 96 ≤ (i 1).val ∧ (i 1).val < win1_5.index ⟨(i 0).val / 5000, hlt⟩ (1 : Fin 2) * 96 + 96
    omega

/-- After the launch, relation output 0 holds (entry rows) · (slab 0), whole. -/
theorem rel1_0_final (c : Dev nD) : (dat1 V c).arrAt 5 cfg1.N
    = linear (M := 50000) (K := 96) (N := 96) (V c main_v77) (slab (K := 96) (N := 96) (V c main_arg7) 0) :=
  (dat1 V c).arrAt_eq_of_cover 5 _ (fun t _ => flushed1_5_eq V c t) (fun i => covered1_5 i)

/-- What point t writes back to relation output 1 is block t of (entry rows) · (slab 1 of the relation weights). -/
theorem flushed1_6_eq (c : Dev nD) (t : Fin cfg1.N) :
    (dat1 V c).flushed 6 t = ((cfg1.win 6).blk t).view.read (Elt Ideal)
      (linear (M := 50000) (K := 96) (N := 96) (V c main_v77) (slab (K := 96) (N := 96) (V c main_arg7) 1)) := by
  show (cfg1.win 6).cut (grid1.coords t) ((dat1 V c).after 6 t) = _
  rw [after1_6]
  unfold out1_6
  rw [View.canon_unit_zero zero2]
  simp only [View.ld_unit_zero (S := S5000x96) zero2]
  rw [rel1_pay4, slab1_load1]
  obtain ⟨x0, x1, w0, w1, b0, s0, s1, s2, o40, o41, o50, o51, o60, o61, o70, o71⟩ := idx1 t
  funext j
  show linear (M := 5000) (K := 96) (N := 96) (iblk1 V c 0 t) (slab (K := 96) (N := 96) (iblk1 V c 3 t) 1) j
      = linear (M := 50000) (K := 96) (N := 96) (V c main_v77) (slab (K := 96) (N := 96) (V c main_arg7) 1) (((cfg1.win 6).blk t).view.emb j)
  refine linear_slab_block _ _ _ _ 1 j _ (fun k => ?_) (fun k => ?_)
  ·
    have h : ((cfg1.win 0).blk t).view.emb (ix2 (j 0) k) = ix2 ((((cfg1.win 6).blk t).view.emb j) 0) k := by
      funext a; apply Fin.ext
      match a with
      | ⟨0, _⟩ => show win1_0.index t (0 : Fin 2) * 5000 + 1 * (j 0).val = win1_6.index t (0 : Fin 2) * 5000 + 1 * (j 0).val; omega
      | ⟨1, _⟩ => show win1_0.index t (1 : Fin 2) * 96 + 1 * k.val = k.val; omega
    exact congrArg (V c main_v77) h
  · have h : ((cfg1.win 3).blk t).view.emb (ix3 (1 : Fin 3) k (j 1)) = ix3 (1 : Fin 3) k ((((cfg1.win 6).blk t).view.emb j) 1) := by
      funext a; apply Fin.ext
      match a with
      | ⟨0, _⟩ => show win1_3.index t (0 : Fin 3) * 3 + 1 * 1 = 1; omega
      | ⟨1, _⟩ => show win1_3.index t (1 : Fin 3) * 96 + 1 * k.val = k.val; omega
      | ⟨2, _⟩ => show win1_3.index t (2 : Fin 3) * 96 + 1 * (j 1).val = win1_6.index t (1 : Fin 2) * 96 + 1 * (j 1).val; omega
    exact congrArg (V c main_arg7) h

/-- An index of output array 2 is in point t's block iff each coordinate is in the block's range on its axis. -/
theorem mem_blk1_6 (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v78_2).slice (win1_6.rect t)).set ↔ _
  rw [View.set_slice_whole, Rect.mem_set_unit]
  exact Iff.rfl

/-- Row r of the array lies in the block of point r / 5000: the ten blocks of 5000 rows tile the 50000 rows. -/
theorem covered1_6 (i : S50000x96.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 96 := (i 1).isLt
  have hlt : (i 0).val / 5000 < cfg1.N := by rw [hN]; omega
  refine ⟨⟨(i 0).val / 5000, hlt⟩, flush1_6 _, ?_⟩
  rw [mem_blk1_6]
  obtain ⟨x0, x1, w0, w1, b0, s0, s1, s2, o40, o41, o50, o51, o60, o61, o70, o71⟩ := idx1 ⟨(i 0).val / 5000, hlt⟩
  have hv : (⟨(i 0).val / 5000, hlt⟩ : Fin cfg1.N).val = (i 0).val / 5000 := rfl
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    omega
  | ⟨1, _⟩ =>
    show win1_6.index ⟨(i 0).val / 5000, hlt⟩ (1 : Fin 2) * 96 ≤ (i 1).val ∧ (i 1).val < win1_6.index ⟨(i 0).val / 5000, hlt⟩ (1 : Fin 2) * 96 + 96
    omega

/-- After the launch, relation output 1 holds (entry rows) · (slab 1), whole. -/
theorem rel1_1_final (c : Dev nD) : (dat1 V c).arrAt 6 cfg1.N
    = linear (M := 50000) (K := 96) (N := 96) (V c main_v77) (slab (K := 96) (N := 96) (V c main_arg7) 1) :=
  (dat1 V c).arrAt_eq_of_cover 6 _ (fun t _ => flushed1_6_eq V c t) (fun i => covered1_6 i)

/-- What point t writes back to relation output 2 is block t of (entry rows) · (slab 2 of the relation weights). -/
theorem flushed1_7_eq (c : Dev nD) (t : Fin cfg1.N) :
    (dat1 V c).flushed 7 t = ((cfg1.win 7).blk t).view.read (Elt Ideal)
      (linear (M := 50000) (K := 96) (N := 96) (V c main_v77) (slab (K := 96) (N := 96) (V c main_arg7) 2)) := by
  show (cfg1.win 7).cut (grid1.coords t) ((dat1 V c).after 7 t) = _
  rw [after1_7]
  unfold out1_7
  rw [View.canon_unit_zero zero2]
  simp only [View.ld_unit_zero (S := S5000x96) zero2]
  rw [rel1_pay5, slab1_load2]
  obtain ⟨x0, x1, w0, w1, b0, s0, s1, s2, o40, o41, o50, o51, o60, o61, o70, o71⟩ := idx1 t
  funext j
  show linear (M := 5000) (K := 96) (N := 96) (iblk1 V c 0 t) (slab (K := 96) (N := 96) (iblk1 V c 3 t) 2) j
      = linear (M := 50000) (K := 96) (N := 96) (V c main_v77) (slab (K := 96) (N := 96) (V c main_arg7) 2) (((cfg1.win 7).blk t).view.emb j)
  refine linear_slab_block _ _ _ _ 2 j _ (fun k => ?_) (fun k => ?_)
  ·
    have h : ((cfg1.win 0).blk t).view.emb (ix2 (j 0) k) = ix2 ((((cfg1.win 7).blk t).view.emb j) 0) k := by
      funext a; apply Fin.ext
      match a with
      | ⟨0, _⟩ => show win1_0.index t (0 : Fin 2) * 5000 + 1 * (j 0).val = win1_7.index t (0 : Fin 2) * 5000 + 1 * (j 0).val; omega
      | ⟨1, _⟩ => show win1_0.index t (1 : Fin 2) * 96 + 1 * k.val = k.val; omega
    exact congrArg (V c main_v77) h
  · have h : ((cfg1.win 3).blk t).view.emb (ix3 (2 : Fin 3) k (j 1)) = ix3 (2 : Fin 3) k ((((cfg1.win 7).blk t).view.emb j) 1) := by
      funext a; apply Fin.ext
      match a with
      | ⟨0, _⟩ => show win1_3.index t (0 : Fin 3) * 3 + 1 * 2 = 2; omega
      | ⟨1, _⟩ => show win1_3.index t (1 : Fin 3) * 96 + 1 * k.val = k.val; omega
      | ⟨2, _⟩ => show win1_3.index t (2 : Fin 3) * 96 + 1 * (j 1).val = win1_7.index t (1 : Fin 2) * 96 + 1 * (j 1).val; omega
    exact congrArg (V c main_arg7) h

/-- An index of output array 3 is in point t's block iff each coordinate is in the block's range on its axis. -/
theorem mem_blk1_7 (t : Fin cfg1.N) (i : S50000x96.Idx) :
    i ∈ ((cfg1.win 7).blk t).view.set ↔ ∀ a : Fin 2, win1_7.index t a * S5000x96.size a ≤ (i a).val ∧ (i a).val < win1_7.index t a * S5000x96.size a + S5000x96.size a := by
  show i ∈ ((View.whole main_v78_3).slice (win1_7.rect t)).set ↔ _
  rw [View.set_slice_whole, Rect.mem_set_unit]
  exact Iff.rfl

/-- Row r of the array lies in the block of point r / 5000: the ten blocks of 5000 rows tile the 50000 rows. -/
theorem covered1_7 (i : S50000x96.Idx) :
    ∃ t : Fin cfg1.N, (cfg1.win 7).flush t = true ∧ i ∈ ((cfg1.win 7).blk t).view.set := by
  have hN : cfg1.N = 10 := N_1
  have hi0 : (i 0).val < 50000 := (i 0).isLt
  have hi1 : (i 1).val < 96 := (i 1).isLt
  have hlt : (i 0).val / 5000 < cfg1.N := by rw [hN]; omega
  refine ⟨⟨(i 0).val / 5000, hlt⟩, flush1_7 _, ?_⟩
  rw [mem_blk1_7]
  obtain ⟨x0, x1, w0, w1, b0, s0, s1, s2, o40, o41, o50, o51, o60, o61, o70, o71⟩ := idx1 ⟨(i 0).val / 5000, hlt⟩
  have hv : (⟨(i 0).val / 5000, hlt⟩ : Fin cfg1.N).val = (i 0).val / 5000 := rfl
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    omega
  | ⟨1, _⟩ =>
    show win1_7.index ⟨(i 0).val / 5000, hlt⟩ (1 : Fin 2) * 96 ≤ (i 1).val ∧ (i 1).val < win1_7.index ⟨(i 0).val / 5000, hlt⟩ (1 : Fin 2) * 96 + 96
    omega

/-- After the launch, relation output 2 holds (entry rows) · (slab 2), whole. -/
theorem rel1_2_final (c : Dev nD) : (dat1 V c).arrAt 7 cfg1.N
    = linear (M := 50000) (K := 96) (N := 96) (V c main_v77) (slab (K := 96) (N := 96) (V c main_arg7) 2) :=
  (dat1 V c).arrAt_eq_of_cover 7 _ (fun t _ => flushed1_7_eq V c t) (fun i => covered1_7 i)

end Cert.KernelIdeal.Whole

end
-- ==== Proof.KMid.lean ====
/-
  The buffers as the second launch finds them, and what it leaves.

  The second launch reads the rectified first-layer output and the second layer's weights and bias, which are as
  launched. Its four outputs hold h · W_root2 + b2 and h · W_rel2[r], the reference's four layer-2 projections of the
  same h; every buffer it does not own is unchanged.
-/
import proofs.«178041_j88648124990728_1_alg».proof.Proof.Gen.KernelIdeal.Frame
import proofs.«178041_j88648124990728_1_alg».proof.Proof.KWalk1a
import proofs.«178041_j88648124990728_1_alg».proof.Proof.KWalk1b
import proofs.«178041_j88648124990728_1_alg».proof.Proof.KWalk1c
import proofs.«178041_j88648124990728_1_alg».proof.Proof.KChain1
import proofs.«178041_j88648124990728_1_alg».proof.Proof.KReg1
import proofs.«178041_j88648124990728_1_alg».proof.Proof.RefForms

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem V10_arg7 : V10 m ρ c main_arg7 = m ((c : Thread nD τ).loc main_arg7) := W10_arg7 m ρ c

theorem V10_arg8 : V10 m ρ c main_arg8 = m ((c : Thread nD τ).loc main_arg8) := W10_arg8 m ρ c

theorem V10_arg9 : V10 m ρ c main_arg9 = m ((c : Thread nD τ).loc main_arg9) := W10_arg9 m ρ c

theorem W11_v1 : W11 m ρ c (Proc.devRef .tc main_v1) = Cert.ReferenceIdeal.Read.val_main_v1 (F := Ideal) (m ((c : Thread nD τ).loc main_arg1)) :=
  (W11_of_ne m ρ c main_v1 (by decide)).trans (W10_v1 m ρ c)

theorem W11_v3 : W11 m ρ c (Proc.devRef .tc main_v3) = Cert.ReferenceIdeal.Read.val_main_v3 (F := Ideal) (m ((c : Thread nD τ).loc main_arg1)) :=
  (W11_of_ne m ρ c main_v3 (by decide)).trans (W10_v3 m ρ c)

theorem W11_arg2 : W11 m ρ c (Proc.devRef .tc main_arg2) = m ((c : Thread nD τ).loc main_arg2) :=
  (W11_of_ne m ρ c main_arg2 (by decide)).trans (W10_arg2 m ρ c)

theorem W11_arg3 : W11 m ρ c (Proc.devRef .tc main_arg3) = m ((c : Thread nD τ).loc main_arg3) :=
  (W11_of_ne m ρ c main_arg3 (by decide)).trans (W10_arg3 m ρ c)

theorem W11_arg10 : W11 m ρ c (Proc.devRef .tc main_arg10) = m ((c : Thread nD τ).loc main_arg10) :=
  (W11_of_ne m ρ c main_arg10 (by decide)).trans (W10_arg10 m ρ c)

theorem W11_arg11 : W11 m ρ c (Proc.devRef .tc main_arg11) = m ((c : Thread nD τ).loc main_arg11) :=
  (W11_of_ne m ρ c main_arg11 (by decide)).trans (W10_arg11 m ρ c)

/-- The second launch's root output is the reference's layer-2 root term. -/
theorem W11_v78_0 : W11 m ρ c (Proc.devRef .tc main_v78_0) = Cert.ReferenceIdeal.Read.val_main_v93 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) :=
  (W11_arr m ρ c 4).trans ((root1_final (V10 m ρ) c).trans (by
    rw [V10_v77 m ρ c, V10_arg8 m ρ c, V10_arg9 m ρ c]
    exact (Cert.ReferenceIdeal.Dense.v93_eq _ _ _ _ _ _ _ _).symm))

/-- The second launch's relation-0 output is the reference's layer-2 relation-0 projection. -/
theorem W11_v78_1 : W11 m ρ c (Proc.devRef .tc main_v78_1) = Cert.ReferenceIdeal.Read.val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W11_arr m ρ c 5).trans ((rel1_0_final (V10 m ρ) c).trans (by
    rw [V10_v77 m ρ c, V10_arg7 m ρ c]
    exact (Cert.ReferenceIdeal.Dense.v98_eq _ _ _ _ _ _ _).symm))

/-- The second launch's relation-1 output is the reference's layer-2 relation-1 projection. -/
theorem W11_v78_2 : W11 m ρ c (Proc.devRef .tc main_v78_2) = Cert.ReferenceIdeal.Read.val_main_v125 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W11_arr m ρ c 6).trans ((rel1_1_final (V10 m ρ) c).trans (by
    rw [V10_v77 m ρ c, V10_arg7 m ρ c]
    exact (Cert.ReferenceIdeal.Dense.v125_eq _ _ _ _ _ _ _).symm))

/-- The second launch's relation-2 output is the reference's layer-2 relation-2 projection. -/
theorem W11_v78_3 : W11 m ρ c (Proc.devRef .tc main_v78_3) = Cert.ReferenceIdeal.Read.val_main_v152 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W11_arr m ρ c 7).trans ((rel1_2_final (V10 m ρ) c).trans (by
    rw [V10_v77 m ρ c, V10_arg7 m ρ c]
    exact (Cert.ReferenceIdeal.Dense.v152_eq _ _ _ _ _ _ _).symm))

end Cert.KernelIdeal.Whole

end
-- ==== Proof.KChain2.lean ====
/-
  The second layer's host stretch and the pooling: from the second launch's four outputs to the read-out's input.

  The host repeats the first layer's masking, gathering, scatter-adding, dividing, adding and rectifying on the second
  launch's outputs, then sums the rows of each graph and divides by the graph's node count (at least one). The
  reference does the same to its own layer-2 projections, which are the second launch's outputs, so what the read-out
  reads is the reference's pooled features.
-/
import proofs.«178041_j88648124990728_1_alg».proof.Proof.Gen.KernelIdeal.Frame
import proofs.«178041_j88648124990728_1_alg».proof.Proof.KMid

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 100000000 in
/-- The read-out's feature input is the reference's mean-pooled second-layer output. -/
theorem V20_v163 : V20 m ρ c main_v163 = Cert.ReferenceIdeal.Read.val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (W11 m ρ c))))))))) (Proc.devRef .tc main_v163) = _
  after_results_simp
  rw [W11_v78_0 m ρ c, W11_v78_1 m ρ c, W11_v78_2 m ρ c, W11_v78_3 m ρ c, W11_v1 m ρ c, W11_v3 m ρ c,
    W11_arg2 m ρ c, W11_arg3 m ρ c]
  rfl

end Cert.KernelIdeal.Whole

end
-- ==== Proof.KWalk2.lean ====
/-
  The read-out's weights and bias are arguments no host operation writes: at the read-out they are as launched.
-/
import proofs.«178041_j88648124990728_1_alg».proof.Proof.Gen.KernelIdeal.Frame
import proofs.«178041_j88648124990728_1_alg».proof.Proof.KMid

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

theorem V20_arg10 : V20 m ρ c main_arg10 = m ((c : Thread nD τ).loc main_arg10) := by
  show StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (W11 m ρ c))))))))) (Proc.devRef .tc main_arg10) = _
  after_results_simp
  exact W11_arg10 m ρ c

theorem V20_arg11 : V20 m ρ c main_arg11 = m ((c : Thread nD τ).loc main_arg11) := by
  show StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (W11 m ρ c))))))))) (Proc.devRef .tc main_arg11) = _
  after_results_simp
  exact W11_arg11 m ρ c

end Cert.KernelIdeal.Whole

end
-- ==== Proof.KReg2.lean ====
/-
  The read-out launch, from any contents V of the buffers at its entry: what its output array holds when it returns.

  The grid has one point, and every window's block is its whole array. The body writes back pooled · W_lin + b_lin of
  the blocks it loaded, so the output array ends holding that affine map of the entry contents.
-/
import proofs.«178041_j88648124990728_1_alg».proof.Proof.Gen.KernelIdeal.Frame
import proofs.«178041_j88648124990728_1_alg».proof.Proof.KPay

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps at the one grid point: every window is at block 0 on every axis. -/
theorem idx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

/-- What the point writes back is the whole of (entry pooled features) · W_lin + b_lin. -/
theorem flushed2_3_eq (c : Dev nD) (t : Fin cfg2.N) :
    (dat2 V c).flushed 3 t = ((cfg2.win 3).blk t).view.read (Elt Ideal)
      (affine (M := 512) (K := 96) (N := 16) (V c main_v163) (V c main_arg10) (V c main_arg11)) := by
  show (cfg2.win 3).cut (grid2.coords t) ((dat2 V c).after 3 t) = _
  rw [after2_3]
  unfold out2_3
  rw [View.canon_unit_zero zero2]
  simp only [View.ld_unit_zero (S := S512x96) zero2, View.ld_unit_zero (S := S96x16) zero2, View.ld_unit_zero (S := S16) zero1]
  rw [out2_pay]
  obtain ⟨x0, x1, w0, w1, b0, o0, o1⟩ := idx2 t
  funext j
  show affine (M := 512) (K := 96) (N := 16) (iblk2 V c 0 t) (iblk2 V c 1 t) (iblk2 V c 2 t) j
      = affine (M := 512) (K := 96) (N := 16) (V c main_v163) (V c main_arg10) (V c main_arg11) (((cfg2.win 3).blk t).view.emb j)
  refine affine_block _ _ _ _ _ _ j _ (fun k => ?_) (fun k => ?_) ?_
  · have h : ((cfg2.win 0).blk t).view.emb (ix2 (j 0) k) = ix2 ((((cfg2.win 3).blk t).view.emb j) 0) k := by
      funext a; apply Fin.ext
      match a with
      | ⟨0, _⟩ => show win2_0.index t (0 : Fin 2) * 512 + 1 * (j 0).val = win2_3.index t (0 : Fin 2) * 512 + 1 * (j 0).val; omega
      | ⟨1, _⟩ => show win2_0.index t (1 : Fin 2) * 96 + 1 * k.val = k.val; omega
    exact congrArg (V c main_v163) h
  · have h : ((cfg2.win 1).blk t).view.emb (ix2 k (j 1)) = ix2 k ((((cfg2.win 3).blk t).view.emb j) 1) := by
      funext a; apply Fin.ext
      match a with
      | ⟨0, _⟩ => show win2_1.index t (0 : Fin 2) * 96 + 1 * k.val = k.val; omega
      | ⟨1, _⟩ => show win2_1.index t (1 : Fin 2) * 16 + 1 * (j 1).val = win2_3.index t (1 : Fin 2) * 16 + 1 * (j 1).val; omega
    exact congrArg (V c main_arg10) h
  · have h : ((cfg2.win 2).blk t).view.emb (ix1 (j 1)) = ix1 ((((cfg2.win 3).blk t).view.emb j) 1) := by
      funext a; apply Fin.ext
      match a with
      | ⟨0, _⟩ => show win2_2.index t (0 : Fin 1) * 16 + 1 * (j 1).val = win2_3.index t (1 : Fin 2) * 16 + 1 * (j 1).val; omega
    exact congrArg (V c main_arg11) h

/-- An index of the output array is in the point's block iff each coordinate is in the block's range on its axis. -/
theorem mem_blk2_3 (t : Fin cfg2.N) (i : S512x16.Idx) :
    i ∈ ((cfg2.win 3).blk t).view.set ↔ ∀ a : Fin 2, win2_3.index t a * S512x16.size a ≤ (i a).val ∧ (i a).val < win2_3.index t a * S512x16.size a + S512x16.size a := by
  show i ∈ ((View.whole main_v164).slice (win2_3.rect t)).set ↔ _
  rw [View.set_slice_whole, Rect.mem_set_unit]
  exact Iff.rfl

/-- The one block is the whole array. -/
theorem covered2_3 (i : S512x16.Idx) :
    ∃ t : Fin cfg2.N, (cfg2.win 3).flush t = true ∧ i ∈ ((cfg2.win 3).blk t).view.set := by
  have hN : cfg2.N = 1 := N_2
  have hi0 : (i 0).val < 512 := (i 0).isLt
  have hi1 : (i 1).val < 16 := (i 1).isLt
  have hlt : 0 < cfg2.N := by rw [hN]; omega
  refine ⟨⟨0, hlt⟩, flush2_3 _, ?_⟩
  rw [mem_blk2_3]
  obtain ⟨x0, x1, w0, w1, b0, o0, o1⟩ := idx2 ⟨0, hlt⟩
  intro a
  match a with
  | ⟨0, _⟩ =>
    show win2_3.index ⟨0, hlt⟩ (0 : Fin 2) * 512 ≤ (i 0).val ∧ (i 0).val < win2_3.index ⟨0, hlt⟩ (0 : Fin 2) * 512 + 512
    omega
  | ⟨1, _⟩ =>
    show win2_3.index ⟨0, hlt⟩ (1 : Fin 2) * 16 ≤ (i 1).val ∧ (i 1).val < win2_3.index ⟨0, hlt⟩ (1 : Fin 2) * 16 + 16
    omega

/-- After the launch, the output array holds (entry pooled features) · W_lin + b_lin, whole. -/
theorem out2_final (c : Dev nD) : (dat2 V c).arrAt 3 cfg2.N
    = affine (M := 512) (K := 96) (N := 16) (V c main_v163) (V c main_arg10) (V c main_arg11) :=
  (dat2 V c).arrAt_eq_of_cover 3 _ (fun t _ => flushed2_3_eq V c t) (fun i => covered2_3 i)

end Cert.KernelIdeal.Whole

end
-- ==== Proof.KFinal.lean ====
/-
  The kernel's result, as the reference's function of the launch arguments.

  The read-out writes pooled · W_lin + b_lin into the result array, pooled being the reference's pooled features and
  the weights and bias the arguments; that is the reference's own last stage.
-/
import proofs.«178041_j88648124990728_1_alg».proof.Proof.Gen.KernelIdeal.Frame
import proofs.«178041_j88648124990728_1_alg».proof.Proof.KChain2
import proofs.«178041_j88648124990728_1_alg».proof.Proof.KWalk2
import proofs.«178041_j88648124990728_1_alg».proof.Proof.KReg2
import proofs.«178041_j88648124990728_1_alg».proof.Proof.RefForms

set_option maxRecDepth 16384

noncomputable section

namespace Cert.KernelIdeal.Whole

open Cert.KernelIdeal Cert.KernelIdeal.Gen Cert.Rgcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- At the program's end the result buffer holds the reference's result term of the launch arguments. -/
theorem W21_v164 : W21 m ρ c (Proc.devRef .tc main_v164) = Cert.ReferenceIdeal.Read.val_main_v191 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W21_arr m ρ c 3).trans ((out2_final (V20 m ρ) c).trans (by
    rw [V20_v163 m ρ c, V20_arg10 m ρ c, V20_arg11 m ρ c]
    exact (Cert.ReferenceIdeal.Dense.v191_eq _ _ _ _ _ _ _ _ _ _ _ _).symm))

end Cert.KernelIdeal.Whole

end
-- ==== Proof.lean ====
/-
  A two-layer relational graph-convolution network with mean pooling and a linear read-out: the kernel program against
  its jnp reference, on the extended reals.

  The kernel program computes, in three launches on the matrix unit, the dense projections of the network — per layer
  x · W_root + b and x · W_rel[r] for the three relations, on blocks of 5000 rows, and at the end pooled · W_lin + b_lin —
  and leaves everything else to the host: masking the edges by relation, gathering the projected rows at the edges'
  sources, scatter-adding them at the destinations, dividing by the clamped counts, adding, rectifying, and mean-pooling
  the nodes of each graph. The reference computes the same projections by dot_general on the whole arrays and applies
  the same host operations in the same order.

  At the ideal values a product accumulated on the matrix unit from a zero block is the plain sum of products that the
  host's dot_general is, narrowing the operands to bf16 changes nothing, and a row of a product depends only on the same
  row of the left operand, so the blocks of each launch's outputs are the blocks of the whole-array products. Hence each
  launch's outputs are the reference's projections of the same inputs, the host operations between the launches carry
  equal arrays to equal arrays, and the two results are one array. No step divides, cancels or distributes, so the
  finiteness of the inputs is not used.

  The ideal pass rewrote nothing in the kernel, so its idealization is the program's own text read at the ideal values.
-/
import proofs.«178041_j88648124990728_1_alg».proof.Defs
import proofs.«178041_j88648124990728_1_alg».proof.Proof.Gen.Kernel
import proofs.«178041_j88648124990728_1_alg».proof.Proof.Gen.Kernel.Skeleton
import proofs.«178041_j88648124990728_1_alg».proof.Proof.Gen.Kernel.Launch
import proofs.«178041_j88648124990728_1_alg».proof.Proof.Gen.Kernel.Points
import proofs.«178041_j88648124990728_1_alg».proof.Proof.Gen.Kernel.Frame
import proofs.«178041_j88648124990728_1_alg».proof.Proof.Gen.KernelIdeal
import proofs.«178041_j88648124990728_1_alg».proof.Proof.Gen.KernelIdeal.Skeleton
import proofs.«178041_j88648124990728_1_alg».proof.Proof.Gen.KernelIdeal.Launch
import proofs.«178041_j88648124990728_1_alg».proof.Proof.Gen.KernelIdeal.Points
import proofs.«178041_j88648124990728_1_alg».proof.Proof.Gen.KernelIdeal.Frame
import proofs.«178041_j88648124990728_1_alg».proof.Proof.Gen.ReferenceIdeal
import proofs.«178041_j88648124990728_1_alg».proof.Proof.Gen.ReferenceIdeal.Run
import proofs.«178041_j88648124990728_1_alg».proof.Proof.Gen.ReferenceIdeal.Read
import proofs.«178041_j88648124990728_1_alg».proof.Proof.Gen.Pre_finite_inputs
import Idealize.ShloMosaic.Adequacy
import Idealize.ShloMosaic.Init
import proofs.«178041_j88648124990728_1_alg».proof.Proof.KRun
import proofs.«178041_j88648124990728_1_alg».proof.Proof.KFinal

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only; its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs run, and the kernel's result array is the reference's
    result term of the arguments. -/
theorem algebraic : Cert.algebraic_KernelIdeal_ReferenceIdeal := by
  intro m ρ m' ρ' _ hagree
  refine ⟨fun c => Cert.KernelIdeal.Gen.W21 m ρ c (Proc.devRef .tc Cert.KernelIdeal.main_v164),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v191_eq, a0, a1, a2, a3, a4, a5, a6, a7, a8, a9, a10, a11]
  exact (Cert.KernelIdeal.Whole.W21_v164 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
